-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S40000x128 .f32) (main_arg1 : IVec S2x640000 32) (main_arg2 : IVec S40000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S680000 : Shape := ⟨1, ![680000]⟩
abbrev S5000x128 : Shape := ⟨2, ![5000, 128]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S256x128 : Shape := ⟨2, ![256, 128]⟩
abbrev S40000x1 : Shape := ⟨2, ![40000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 141
  | .vmem => 24
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S40000, .i32⟩
  | 10 => ⟨S1x640000, .i32⟩
  | 11 => ⟨S640000, .i32⟩
  | 12 => ⟨S680000, .i32⟩
  | 13 => ⟨S1x640000, .i32⟩
  | 14 => ⟨S640000, .i32⟩
  | 15 => ⟨S680000, .i32⟩
  | 16 => ⟨S40000x128, .f32⟩
  | 17 => ⟨S_, .f32⟩
  | 18 => ⟨S680000, .f32⟩
  | 19 => ⟨S_, .f32⟩
  | 20 => ⟨S40000, .f32⟩
  | 21 => ⟨S680000x1, .i32⟩
  | 22 => ⟨S40000, .f32⟩
  | 23 => ⟨S_, .f32⟩
  | 24 => ⟨S40000, .f32⟩
  | 25 => ⟨S40000, .i1⟩
  | 26 => ⟨S_, .f32⟩
  | 27 => ⟨S40000, .f32⟩
  | 28 => ⟨S40000, .f32⟩
  | 29 => ⟨S40000, .f32⟩
  | 30 => ⟨S_, .f32⟩
  | 31 => ⟨S_, .f32⟩
  | 32 => ⟨S40000, .f32⟩
  | 33 => ⟨S40000, .f32⟩
  | 34 => ⟨S_, .i32⟩
  | 35 => ⟨S680000, .i32⟩
  | 36 => ⟨S680000, .i1⟩
  | 37 => ⟨S_, .i32⟩
  | 38 => ⟨S680000, .i32⟩
  | 39 => ⟨S680000, .i32⟩
  | 40 => ⟨S680000, .i32⟩
  | 41 => ⟨S680000x1, .i32⟩
  | 42 => ⟨S680000, .f32⟩
  | 43 => ⟨S_, .i32⟩
  | 44 => ⟨S680000, .i32⟩
  | 45 => ⟨S680000, .i1⟩
  | 46 => ⟨S_, .i32⟩
  | 47 => ⟨S680000, .i32⟩
  | 48 => ⟨S680000, .i32⟩
  | 49 => ⟨S680000, .i32⟩
  | 50 => ⟨S680000x1, .i32⟩
  | 51 => ⟨S680000, .f32⟩
  | 52 => ⟨S680000, .f32⟩
  | 53 => ⟨S_, .i32⟩
  | 54 => ⟨S680000, .i32⟩
  | 55 => ⟨S680000, .i1⟩
  | 56 => ⟨S_, .i32⟩
  | 57 => ⟨S680000, .i32⟩
  | 58 => ⟨S680000, .i32⟩
  | 59 => ⟨S680000, .i32⟩
  | 60 => ⟨S680000x1, .i32⟩
  | 61 => ⟨S680000x128, .f32⟩
  | 62 => ⟨S680000x1, .f32⟩
  | 63 => ⟨S680000x128, .f32⟩
  | 64 => ⟨S680000x128, .f32⟩
  | 65 => ⟨S_, .f32⟩
  | 66 => ⟨S40000x128, .f32⟩
  | 67 => ⟨S680000x1, .i32⟩
  | 68 => ⟨S40000x128, .f32⟩
  | 69 => ⟨S40000x128, .f32⟩
  | 70 => ⟨S40000x128, .f32⟩
  | 71 => ⟨S_, .f32⟩
  | 72 => ⟨S680000, .f32⟩
  | 73 => ⟨S_, .f32⟩
  | 74 => ⟨S40000, .f32⟩
  | 75 => ⟨S680000x1, .i32⟩
  | 76 => ⟨S40000, .f32⟩
  | 77 => ⟨S_, .f32⟩
  | 78 => ⟨S40000, .f32⟩
  | 79 => ⟨S40000, .i1⟩
  | 80 => ⟨S_, .f32⟩
  | 81 => ⟨S40000, .f32⟩
  | 82 => ⟨S40000, .f32⟩
  | 83 => ⟨S40000, .f32⟩
  | 84 => ⟨S_, .f32⟩
  | 85 => ⟨S_, .f32⟩
  | 86 => ⟨S40000, .f32⟩
  | 87 => ⟨S40000, .f32⟩
  | 88 => ⟨S_, .i32⟩
  | 89 => ⟨S680000, .i32⟩
  | 90 => ⟨S680000, .i1⟩
  | 91 => ⟨S_, .i32⟩
  | 92 => ⟨S680000, .i32⟩
  | 93 => ⟨S680000, .i32⟩
  | 94 => ⟨S680000, .i32⟩
  | 95 => ⟨S680000x1, .i32⟩
  | 96 => ⟨S680000, .f32⟩
  | 97 => ⟨S_, .i32⟩
  | 98 => ⟨S680000, .i32⟩
  | 99 => ⟨S680000, .i1⟩
  | 100 => ⟨S_, .i32⟩
  | 101 => ⟨S680000, .i32⟩
  | 102 => ⟨S680000, .i32⟩
  | 103 => ⟨S680000, .i32⟩
  | 104 => ⟨S680000x1, .i32⟩
  | 105 => ⟨S680000, .f32⟩
  | 106 => ⟨S680000, .f32⟩
  | 107 => ⟨S_, .i32⟩
  | 108 => ⟨S680000, .i32⟩
  | 109 => ⟨S680000, .i1⟩
  | 110 => ⟨S_, .i32⟩
  | 111 => ⟨S680000, .i32⟩
  | 112 => ⟨S680000, .i32⟩
  | 113 => ⟨S680000, .i32⟩
  | 114 => ⟨S680000x1, .i32⟩
  | 115 => ⟨S680000x128, .f32⟩
  | 116 => ⟨S680000x1, .f32⟩
  | 117 => ⟨S680000x128, .f32⟩
  | 118 => ⟨S680000x128, .f32⟩
  | 119 => ⟨S_, .f32⟩
  | 120 => ⟨S40000x128, .f32⟩
  | 121 => ⟨S680000x1, .i32⟩
  | 122 => ⟨S40000x128, .f32⟩
  | 123 => ⟨S40000x128, .f32⟩
  | 124 => ⟨S_, .f32⟩
  | 125 => ⟨S256x128, .f32⟩
  | 126 => ⟨S40000x1, .i32⟩
  | 127 => ⟨S256x128, .f32⟩
  | _ => ⟨S40000x128, .f32⟩

abbrev hbmTy0_1 (i : Nat) : BufTy := match i % 128 with
  | 0 => ⟨S_, .f32⟩
  | 1 => ⟨S40000, .f32⟩
  | 2 => ⟨S_, .f32⟩
  | 3 => ⟨S256, .f32⟩
  | 4 => ⟨S40000x1, .i32⟩
  | 5 => ⟨S256, .f32⟩
  | 6 => ⟨S_, .f32⟩
  | 7 => ⟨S256, .f32⟩
  | 8 => ⟨S256, .f32⟩
  | 9 => ⟨S256x1, .f32⟩
  | 10 => ⟨S256x128, .f32⟩
  | 11 => ⟨S256x128, .f32⟩
  | 12 => ⟨S256x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S256x128, .f32⟩
  | .local _ .vmem, ⟨21, _⟩ => ⟨S128x10, .f32⟩
  | .local _ .vmem, ⟨22, _⟩ => ⟨S10, .f32⟩
  | .local _ .vmem, ⟨23, _⟩ => ⟨S256x10, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_call1_v0 : Ref sig .tc := ⟨.hbm, 85, rfl⟩
abbrev main_call1_v1 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_19 : Ref sig .tc := ⟨.hbm, 107, rfl⟩
abbrev main_v73 : Ref sig .tc := ⟨.hbm, 108, rfl⟩
abbrev main_v74 : Ref sig .tc := ⟨.hbm, 109, rfl⟩
abbrev main_c_20 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_21 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_22 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_23 : Ref sig .tc := ⟨.hbm, 128, rfl⟩
abbrev main_v90 : Ref sig .tc := ⟨.hbm, 129, rfl⟩
abbrev main_cst_24 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_25 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S256x128 : S_.BroadcastsInDim S256x128 (![] : Fin 0 → Fin S256x128.rank)
  bcast_S40000_S40000x1_0 : S40000.BroadcastsInDim S40000x1 (![0] : Fin 1 → Fin S40000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  dot_S5000x128_S128x128_S5000x128_1_0_0_1_n_n_wf : DotDims.WF S5000x128 S128x128 S5000x128 [1] [0] [0] [1] [] []
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  scatter_S256x128_S40000x1_S40000x128_1_0_0_1_wf : ScatterDims.WF S256x128 S40000x1 S40000x128 [1] [0] [0] 1
  scatter_S256_S40000x1_S40000_n_0_0_1_wf : ScatterDims.WF S256 S40000x1 S40000 [] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S40000x128.size a
  hwx1_2 : ∀ i : grid1.Coords, EltTy.bits .f32 = 32 ∨ (Rect.block (s := S40000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S40000x128.size a
  hwx2_2 : ∀ i : grid2.Coords, EltTy.bits .f32 = 32 ∨ (Rect.block (s := S40000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S40000x128.size a
  hwx3_2 : ∀ i : grid3.Coords, EltTy.bits .f32 = 32 ∨ (Rect.block (s := S40000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10.size a ≤ S10.size a
  hwx4_2 : ∀ i : grid4.Coords, EltTy.bits .f32 = 32 ∨ (Rect.block (s := S10) S10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x10.size a ≤ S256x10.size a
  hwx4_3 : ∀ i : grid4.Coords, EltTy.bits .f32 = 32 ∨ (Rect.block (s := S256x10) S256x10.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def scatter_S256_S40000x1_S40000_n_0_0_1 : ScatterDims S256 S40000x1 S40000 where
  updateWindowDims := []
  insertedWindowDims := [0]
  scatterDimsToOperandDims := [0]
  indexVectorDim := 1
  wf := scatter_S256_S40000x1_S40000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v98) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v99) S256x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S256x128 : Shape := ⟨2, ![256, 128]⟩
abbrev S40000x1 : Shape := ⟨2, ![40000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 169
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S40000, .i32⟩
  | 10 => ⟨S1x640000, .i32⟩
  | 11 => ⟨S640000, .i32⟩
  | 12 => ⟨S680000, .i32⟩
  | 13 => ⟨S1x640000, .i32⟩
  | 14 => ⟨S640000, .i32⟩
  | 15 => ⟨S680000, .i32⟩
  | 16 => ⟨S40000x128, .f32⟩
  | 17 => ⟨S_, .f32⟩
  | 18 => ⟨S680000, .f32⟩
  | 19 => ⟨S_, .f32⟩
  | 20 => ⟨S40000, .f32⟩
  | 21 => ⟨S680000x1, .i32⟩
  | 22 => ⟨S40000, .f32⟩
  | 23 => ⟨S_, .f32⟩
  | 24 => ⟨S40000, .f32⟩
  | 25 => ⟨S40000, .i1⟩
  | 26 => ⟨S_, .f32⟩
  | 27 => ⟨S40000, .f32⟩
  | 28 => ⟨S40000, .f32⟩
  | 29 => ⟨S40000, .f32⟩
  | 30 => ⟨S_, .f32⟩
  | 31 => ⟨S_, .f32⟩
  | 32 => ⟨S40000, .f32⟩
  | 33 => ⟨S40000, .f32⟩
  | 34 => ⟨S_, .i32⟩
  | 35 => ⟨S680000, .i32⟩
  | 36 => ⟨S680000, .i1⟩
  | 37 => ⟨S_, .i32⟩
  | 38 => ⟨S680000, .i32⟩
  | 39 => ⟨S680000, .i32⟩
  | 40 => ⟨S680000, .i32⟩
  | 41 => ⟨S680000x1, .i32⟩
  | 42 => ⟨S680000, .f32⟩
  | 43 => ⟨S_, .i32⟩
  | 44 => ⟨S680000, .i32⟩
  | 45 => ⟨S680000, .i1⟩
  | 46 => ⟨S_, .i32⟩
  | 47 => ⟨S680000, .i32⟩
  | 48 => ⟨S680000, .i32⟩
  | 49 => ⟨S680000, .i32⟩
  | 50 => ⟨S680000x1, .i32⟩
  | 51 => ⟨S680000, .f32⟩
  | 52 => ⟨S680000, .f32⟩
  | 53 => ⟨S_, .i32⟩
  | 54 => ⟨S680000, .i32⟩
  | 55 => ⟨S680000, .i1⟩
  | 56 => ⟨S_, .i32⟩
  | 57 => ⟨S680000, .i32⟩
  | 58 => ⟨S680000, .i32⟩
  | 59 => ⟨S680000, .i32⟩
  | 60 => ⟨S680000x1, .i32⟩
  | 61 => ⟨S680000x128, .f32⟩
  | 62 => ⟨S680000x1, .f32⟩
  | 63 => ⟨S680000x128, .f32⟩
  | 64 => ⟨S680000x128, .f32⟩
  | 65 => ⟨S_, .f32⟩
  | 66 => ⟨S40000x128, .f32⟩
  | 67 => ⟨S680000x1, .i32⟩
  | 68 => ⟨S40000x128, .f32⟩
  | 69 => ⟨S1x128, .f32⟩
  | 70 => ⟨S40000x128, .f32⟩
  | 71 => ⟨S40000x128, .f32⟩
  | 72 => ⟨S_, .f32⟩
  | 73 => ⟨S40000x128, .f32⟩
  | 74 => ⟨S40000x128, .f32⟩
  | 75 => ⟨S40000x128, .f32⟩
  | 76 => ⟨S_, .f32⟩
  | 77 => ⟨S680000, .f32⟩
  | 78 => ⟨S_, .f32⟩
  | 79 => ⟨S40000, .f32⟩
  | 80 => ⟨S680000x1, .i32⟩
  | 81 => ⟨S40000, .f32⟩
  | 82 => ⟨S_, .f32⟩
  | 83 => ⟨S40000, .f32⟩
  | 84 => ⟨S40000, .i1⟩
  | 85 => ⟨S_, .f32⟩
  | 86 => ⟨S40000, .f32⟩
  | 87 => ⟨S40000, .f32⟩
  | 88 => ⟨S40000, .f32⟩
  | 89 => ⟨S_, .f32⟩
  | 90 => ⟨S_, .f32⟩
  | 91 => ⟨S40000, .f32⟩
  | 92 => ⟨S40000, .f32⟩
  | 93 => ⟨S_, .i32⟩
  | 94 => ⟨S680000, .i32⟩
  | 95 => ⟨S680000, .i1⟩
  | 96 => ⟨S_, .i32⟩
  | 97 => ⟨S680000, .i32⟩
  | 98 => ⟨S680000, .i32⟩
  | 99 => ⟨S680000, .i32⟩
  | 100 => ⟨S680000x1, .i32⟩
  | 101 => ⟨S680000, .f32⟩
  | 102 => ⟨S_, .i32⟩
  | 103 => ⟨S680000, .i32⟩
  | 104 => ⟨S680000, .i1⟩
  | 105 => ⟨S_, .i32⟩
  | 106 => ⟨S680000, .i32⟩
  | 107 => ⟨S680000, .i32⟩
  | 108 => ⟨S680000, .i32⟩
  | 109 => ⟨S680000x1, .i32⟩
  | 110 => ⟨S680000, .f32⟩
  | 111 => ⟨S680000, .f32⟩
  | 112 => ⟨S_, .i32⟩
  | 113 => ⟨S680000, .i32⟩
  | 114 => ⟨S680000, .i1⟩
  | 115 => ⟨S_, .i32⟩
  | 116 => ⟨S680000, .i32⟩
  | 117 => ⟨S680000, .i32⟩
  | 118 => ⟨S680000, .i32⟩
  | 119 => ⟨S680000x1, .i32⟩
  | 120 => ⟨S680000x128, .f32⟩
  | 121 => ⟨S680000x1, .f32⟩
  | 122 => ⟨S680000x128, .f32⟩
  | 123 => ⟨S680000x128, .f32⟩
  | 124 => ⟨S_, .f32⟩
  | 125 => ⟨S40000x128, .f32⟩
  | 126 => ⟨S680000x1, .i32⟩
  | 127 => ⟨S40000x128, .f32⟩
  | _ => ⟨S40000x128, .f32⟩

abbrev hbmTy0_1 (i : Nat) : BufTy := match i % 128 with
  | 0 => ⟨S1x128, .f32⟩
  | 1 => ⟨S40000x128, .f32⟩
  | 2 => ⟨S40000x128, .f32⟩
  | 3 => ⟨S_, .f32⟩
  | 4 => ⟨S40000x128, .f32⟩
  | 5 => ⟨S40000x128, .f32⟩
  | 6 => ⟨S_, .f32⟩
  | 7 => ⟨S256x128, .f32⟩
  | 8 => ⟨S40000x1, .i32⟩
  | 9 => ⟨S256x128, .f32⟩
  | 10 => ⟨S_, .f32⟩
  | 11 => ⟨S40000, .f32⟩
  | 12 => ⟨S_, .f32⟩
  | 13 => ⟨S256, .f32⟩
  | 14 => ⟨S40000x1, .i32⟩
  | 15 => ⟨S256, .f32⟩
  | 16 => ⟨S_, .f32⟩
  | 17 => ⟨S256, .f32⟩
  | 18 => ⟨S256, .f32⟩
  | 19 => ⟨S256x1, .f32⟩
  | 20 => ⟨S256x128, .f32⟩
  | 21 => ⟨S256x128, .f32⟩
  | 22 => ⟨S256x10, .f32⟩
  | 23 => ⟨S1x10, .f32⟩
  | 24 => ⟨S256x10, .f32⟩
  | 25 => ⟨S256x10, .f32⟩
  | 26 => ⟨S_, .f32⟩
  | 27 => ⟨S256, .f32⟩
  | 28 => ⟨S_, .f32⟩
  | 29 => ⟨S256, .f32⟩
  | 30 => ⟨S256, .f32⟩
  | 31 => ⟨S256x1, .f32⟩
  | 32 => ⟨S256x10, .f32⟩
  | 33 => ⟨S256x10, .f32⟩
  | 34 => ⟨S256x10, .f32⟩
  | 35 => ⟨S_, .f32⟩
  | 36 => ⟨S256, .f32⟩
  | 37 => ⟨S256x1, .f32⟩
  | 38 => ⟨S256x1, .f32⟩
  | 39 => ⟨S256x10, .f32⟩
  | 40 => ⟨S256x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v60 : Ref sig .tc := ⟨.hbm, 92, rfl⟩
abbrev main_c_15 : Ref sig .tc := ⟨.hbm, 93, rfl⟩
abbrev main_v61 : Ref sig .tc := ⟨.hbm, 94, rfl⟩
abbrev main_v62 : Ref sig .tc := ⟨.hbm, 95, rfl⟩
abbrev main_c_16 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_17 : Ref sig .tc := ⟨.hbm, 102, rfl⟩
abbrev main_v68 : Ref sig .tc := ⟨.hbm, 103, rfl⟩
abbrev main_v69 : Ref sig .tc := ⟨.hbm, 104, rfl⟩
abbrev main_c_18 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_19 : Ref sig .tc := ⟨.hbm, 112, rfl⟩
abbrev main_v76 : Ref sig .tc := ⟨.hbm, 113, rfl⟩
abbrev main_v77 : Ref sig .tc := ⟨.hbm, 114, rfl⟩
abbrev main_c_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_21 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call3_cst : Ref sig .tc := ⟨.hbm, 131, rfl⟩
abbrev main_call3_v0 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_cst_24 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_25 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_call4_cst : Ref sig .tc := ⟨.hbm, 154, rfl⟩
abbrev main_call4_v0 : Ref sig .tc := ⟨.hbm, 155, rfl⟩
abbrev main_call4_cst_0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_v6 : Ref sig .tc := ⟨.hbm, 162, rfl⟩
abbrev main_call4_cst_1 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_v109 : Ref sig .tc := ⟨.hbm, 168, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S256x128 : S_.BroadcastsInDim S256x128 (![] : Fin 0 → Fin S256x128.rank)
  bcast_S40000_S40000x1_0 : S40000.BroadcastsInDim S40000x1 (![0] : Fin 1 → Fin S40000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S256x1_S256x10_0_1 : S256x1.BroadcastsInDim S256x10 (![0, 1] : Fin 2 → Fin S256x10.rank)
  dot_S40000x128_S128x128_S40000x128_1_0_0_1_n_n_wf : DotDims.WF S40000x128 S128x128 S40000x128 [1] [0] [0] [1] [] []
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  scatter_S256x128_S40000x1_S40000x128_1_0_0_1_wf : ScatterDims.WF S256x128 S40000x1 S40000x128 [1] [0] [0] 1
  scatter_S256_S40000x1_S40000_n_0_0_1_wf : ScatterDims.WF S256 S40000x1 S40000 [] [0] [0] 1
  dot_S256x128_S128x10_S256x10_1_0_0_1_n_n_wf : DotDims.WF S256x128 S128x10 S256x10 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def scatter_S256_S40000x1_S40000_n_0_0_1 : ScatterDims S256 S40000x1 S40000 where
  updateWindowDims := []
  insertedWindowDims := [0]
  scatterDimsToOperandDims := [0]
  indexVectorDim := 1
  wf := scatter_S256_S40000x1_S40000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.KernelRun.lean ====
/-
  The idealized kernel's run with its result named.

  @main is thirteen segments: stretches of host operations and five kernel regions. The buffer contents at each segment
  boundary are a fold from the launch memory (a stretch applies its operations; a region leaves in each of its arrays
  what its write-backs leave). Every weakly fair execution terminates with every unscoped buffer at the last boundary's
  contents: here that is read at the result buffer as well as at the nine arguments.
-/
import proofs.«135871_j87050397156003_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v99) = W13 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v99 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Named

end
-- ==== Proof.Boundaries.lean ====
/-
  The argument arrays at the boundaries between @main's segments.

  The buffer contents at each boundary are a fold from the launch memory: a host stretch rewrites only the buffers its
  operations write, a region only its windows' arrays. An argument that nothing before a boundary writes is, at that
  boundary, what the launch memory holds: the fold is walked back one segment at a time.
-/
import proofs.«135871_j87050397156003_1_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- `main_arg0` is as launched at boundary 1: no stretch and no region before it writes it. -/
theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg3` is as launched at boundary 1: no stretch and no region before it writes it. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` is as launched at boundary 5: no stretch and no region before it writes it. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` is as launched at boundary 6: no stretch and no region before it writes it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` is as launched at boundary 10: no stretch and no region before it writes it. -/
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_forall_not_mem (b := Proc.devRef .tc main_arg6) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := StableHlo.after_of_forall_not_mem (b := Proc.devRef .tc main_arg6) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- `main_arg2` is as launched at boundary 11: no stretch and no region before it writes it. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_forall_not_mem (b := Proc.devRef .tc main_arg2) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg2) := StableHlo.after_of_forall_not_mem (b := Proc.devRef .tc main_arg2) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg7` is as launched at boundary 12: no stretch and no region before it writes it. -/
theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := StableHlo.after_of_forall_not_mem (b := Proc.devRef .tc main_arg7) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` is as launched at boundary 12: no stretch and no region before it writes it. -/
theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := StableHlo.after_of_forall_not_mem (b := Proc.devRef .tc main_arg8) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_v6` at boundary 2 is what boundary 1 holds: nothing between them writes it. -/
theorem W2_main_v6 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

/-- `main_v3` at boundary 4 is what boundary 1 holds: nothing between them writes it. -/
theorem W4_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v6` at boundary 4 is what boundary 1 holds: nothing between them writes it. -/
theorem W4_main_v6 (c : Dev nD) : W4 m ρ c (Proc.devRef .tc main_v6) = W1 m ρ c (Proc.devRef .tc main_v6) :=
  calc W4 m ρ c (Proc.devRef .tc main_v6)
    _ = W3 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- `main_v7` at boundary 4 is what boundary 2 holds: nothing between them writes it. -/
theorem W4_main_v7 (c : Dev nD) : W4 m ρ c (Proc.devRef .tc main_v7) = W2 m ρ c (Proc.devRef .tc main_v7) :=
  calc W4 m ρ c (Proc.devRef .tc main_v7)
    _ = W3 m ρ c (Proc.devRef .tc main_v7) := StableHlo.after_of_forall_not_mem (b := Proc.devRef .tc main_v7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v6` at boundary 7 is what boundary 1 holds: nothing between them writes it. -/
theorem W7_main_v6 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- `main_v3` at boundary 9 is what boundary 1 holds: nothing between them writes it. -/
theorem W9_main_v3 (c : Dev nD) : W9 m ρ c (Proc.devRef .tc main_v3) = W1 m ρ c (Proc.devRef .tc main_v3) :=
  calc W9 m ρ c (Proc.devRef .tc main_v3)
    _ = W8 m ρ c (Proc.devRef .tc main_v3) := StableHlo.after_of_forall_not_mem (b := Proc.devRef .tc main_v3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v6` at boundary 9 is what boundary 1 holds: nothing between them writes it. -/
theorem W9_main_v6 (c : Dev nD) : W9 m ρ c (Proc.devRef .tc main_v6) = W1 m ρ c (Proc.devRef .tc main_v6) :=
  calc W9 m ρ c (Proc.devRef .tc main_v6)
    _ = W8 m ρ c (Proc.devRef .tc main_v6) := StableHlo.after_of_forall_not_mem (b := Proc.devRef .tc main_v6) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- `main_v47` at boundary 9 is what boundary 7 holds: nothing between them writes it. -/
theorem W9_main_v47 (c : Dev nD) : W9 m ρ c (Proc.devRef .tc main_v47) = W7 m ρ c (Proc.devRef .tc main_v47) :=
  calc W9 m ρ c (Proc.devRef .tc main_v47)
    _ = W8 m ρ c (Proc.devRef .tc main_v47) := StableHlo.after_of_forall_not_mem (b := Proc.devRef .tc main_v47) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v47) := StableHlo.after_of_forall_not_mem (b := Proc.devRef .tc main_v47) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«135871_j87050397156003_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.DenseBody.lean ====
/-
  Region 0 of the idealized kernel: the first dense product, block of rows by block of rows.

  The grid has eight points; point t stages rows 5000·t … 5000·t + 4999 of the left operand, the whole right operand,
  and writes back the same rows of the result. The body's one store is the product, into a zero accumulator, of the
  staged rows (narrowed to bf16, which on the extended reals is the identity) with the right operand: entry (p, q) of
  the block is Σ_j left(5000·t + p, j) · right(j, q). A rows-against-columns product reads only row r of its left
  operand at row r, so block t of the whole product is the product of block t; the eight blocks tile the 40000 rows,
  hence the array the region leaves is the whole product of the arrays it found.
-/
import proofs.«135871_j87050397156003_1_alg».proof.Proof.Gen.KernelIdeal.Frame
import proofs.«135871_j87050397156003_1_alg».proof.Proof.LibRowsDot
import Idealize.ShloMosaic.Lib.Pipeline.Value
import Idealize.ShloMosaic.Lib.ValueIdx

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx Cert.Sage
open Idealize.ShloMosaic.Pipeline (Dat)

theorem zero_offsets : (![0, 0] : Fin 2 → Nat) = fun _ => 0 := funext fun a => by fin_cases a <;> rfl

/-! ## The body's product at an entry -/

/-- The body's product record: the second axis of the staged rows against the first of the right operand. -/
abbrev D₀ : DotDims S5000x128 S128x128 S5000x128 := dot_S5000x128_S128x128_S5000x128_1_0_0_1_n_n

theorem d0_l0 (i : S5000x128.Idx) (q : D₀.contr.Idx) : (D₀.lhsIdx i q 0).val = (i 0).val := by
  unfold DotDims.lhsIdx
  rw [dif_neg (show ¬(0 : Fin S5000x128.rank) ∈ D₀.lhsBatch by decide), dif_pos (show (0 : Fin S5000x128.rank) ∈ D₀.lhsNonContracting by decide)]
  rfl
theorem d0_l1 (i : S5000x128.Idx) (q : D₀.contr.Idx) : (D₀.lhsIdx i q 1).val = (q ⟨0, by decide⟩).val :=
  D₀.lhsIdx_val_of_single rfl i q
theorem d0_r0 (i : S5000x128.Idx) (q : D₀.contr.Idx) : (D₀.rhsIdx i q 0).val = (q ⟨0, by decide⟩).val :=
  D₀.rhsIdx_val_of_single rfl i q
theorem d0_r1 (i : S5000x128.Idx) (q : D₀.contr.Idx) : (D₀.rhsIdx i q 1).val = (i 1).val := by
  unfold DotDims.rhsIdx
  rw [dif_neg (show ¬(1 : Fin S128x128.rank) ∈ D₀.rhsBatch by decide), dif_pos (show (1 : Fin S128x128.rank) ∈ D₀.rhsNonContracting by decide)]
  rfl

/-- The stored block at entry (p, q): the row–column sum of the staged rows with the right operand. -/
theorem pay0_apply (x0 : Vec Ideal S5000x128 .f32) (x1 : Vec Ideal S128x128 .f32) (p : Fin 5000) (q : Fin 128) :
    k0_pay1 x0 x1 (ix2 p q) = rowsMul (n := 5000) (k := 128) (c := 128) x0 x1 (ix2 p q) := by
  unfold k0_pay1
  exact matmul_zero_rows D₀ rfl rfl d0_l0 d0_l1 d0_r0 d0_r1 none _ _ p q

/-- The same for the second dense product's body, whose staged rows pass through an identity recast first. -/
theorem pay2_apply (x0 : Vec Ideal S5000x128 .f32) (x1 : Vec Ideal S128x128 .f32) (p : Fin 5000) (q : Fin 128) :
    k2_pay1 x0 x1 (ix2 p q) = rowsMul (n := 5000) (k := 128) (c := 128) x0 x1 (ix2 p q) := by
  unfold k2_pay1
  rw [shapeCast_self]
  exact matmul_zero_rows D₀ rfl rfl d0_l0 d0_l1 d0_r0 d0_r1 none _ _ p q

end Cert.KernelIdeal.Dense

end
-- ==== Proof.Region0.lean ====
/-
  Region 0 of the idealized kernel: a dense product computed block of rows by block of rows is the whole product.

  Point t of the eight stages rows 5000·t … 5000·t + 4999 of the left operand and the whole right operand, and writes
  back the same rows of the result; its stored block is the rows-against-columns product of what it staged. Such a
  product reads only row r of its left operand at row r, so what point t writes back is block t of the product of the
  whole arrays; the eight blocks tile the 40000 rows, so the region leaves the whole product in its output array.
-/
import proofs.«135871_j87050397156003_1_alg».proof.Proof.DenseBody

set_option maxRecDepth 16384

noncomputable section

namespace Cert.KernelIdeal.Dense0

open Cert.KernelIdeal Cert.KernelIdeal.Gen Cert.KernelIdeal.Dense Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The printed index maps over the grid: the left operand's and the result's blocks move together down the rows,
    point t at block t; the right operand's block is always the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows of a product, from the product of the block: the per-point fact, over plain arrays. -/
theorem block_of_product (A : S40000x128.Idx → EReal) (W : S128x128.Idx → EReal)
    (x0 : Vec Ideal S5000x128 .f32) (x1 : Vec Ideal S128x128 .f32) (I : S40000x128.Idx) (p : Fin 5000) (q : Fin 128)
    (hq : (I 1).val = q.val) (h0 : ∀ j : Fin 128, A (ix2 (rowOf I) j) = x0 (ix2 p j)) (h1 : x1 = W) :
    k0_pay1 x0 x1 (ix2 p q) = rowsMul (n := 40000) (k := 128) (c := 128) A W I := by
  subst h1
  refine (pay0_apply x0 x1 p q).trans (rowsMul_rows A x0 x1 I (ix2 p q) hq fun j => ?_).symm
  exact h0 j

/-- What point t writes back is block t of the product of the arrays the region found. -/
theorem flushed_eq (c : Dev nD) (t : Fin cfg0.N) :
    (dat0 V c).flushed 2 t = ((cfg0.win 2).blk t).view.read (Elt Ideal)
      (rowsMul (n := 40000) (k := 128) (c := 128) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = rowsMul (n := 40000) (k := 128) (c := 128) (V c main_arg0) (V c main_arg3) (((cfg0.win 2).blk t).view.emb (ix2 p q))
  refine block_of_product (V c main_arg0) (V c main_arg3) (iblk0 V c 0 t) (iblk0 V c 1 t) _ p q ?_ (fun j => ?_) ?_
  · show win0_2.index t (1 : Fin 2) * 128 + 1 * q.val = q.val
    omega
  · show V c main_arg0 _ = V c main_arg0 (((cfg0.win 0).blk t).view.emb (ix2 p j))
    refine congrArg (V c main_arg0) (funext fun a => Fin.ext ?_)
    match a with
    | ⟨0, _⟩ =>
      show win0_2.index t (0 : Fin 2) * 5000 + 1 * p.val = win0_0.index t (0 : Fin 2) * 5000 + 1 * p.val
      omega
    | ⟨1, _⟩ =>
      show j.val = win0_0.index t (1 : Fin 2) * 128 + 1 * j.val
      omega
  · funext y
    show V c main_arg3 (((cfg0.win 1).blk t).view.emb y) = V c main_arg3 y
    refine congrArg (V c main_arg3) (funext fun a => Fin.ext ?_)
    match a with
    | ⟨0, _⟩ =>
      show win0_1.index t (0 : Fin 2) * 128 + 1 * (y 0).val = (y 0).val
      omega
    | ⟨1, _⟩ =>
      show win0_1.index t (1 : Fin 2) * 128 + 1 * (y 1).val = (y 1).val
      omega

/-- An index of the result array is in point t's block iff each coordinate is in the block's range on its axis. -/
theorem mem_block (t : Fin cfg0.N) (i : S40000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- The eight blocks tile the rows: row r is in the block of point r / 5000. -/
theorem covered (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  have hN : grid0.N = 8 := N_0
  have ht : (i 0).val / 5000 < cfg0.N := by show (i 0).val / 5000 < grid0.N; omega
  obtain ⟨e0, e1, e2, e3, e4, e5⟩ := index_facts ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- THE REGION'S RESULT: its output array ends holding the product of the two arrays it found. -/
theorem final (c : Dev nD) :
    (dat0 V c).arrAt 2 cfg0.N = rowsMul (n := 40000) (k := 128) (c := 128) (V c main_arg0) (V c main_arg3) :=
  (dat0 V c).arrAt_eq_of_cover 2 _ (fun t _ => flushed_eq V c t) covered

end Cert.KernelIdeal.Dense0

end
-- ==== Proof.LibGraphRows.lean ====
/-
  Row-wise pieces of a degree-normalised graph convolution, on the extended reals, beside the rows-against-columns
  product `rowsMul`:

    scaleRows h w   : entry (e, f) is h(e, f) · w(e, 0)            — every row of `h` scaled by that row's weight;
    addRowOf v b    : entry (r, c) is v(r, c) + b(0, c)            — one row vector added to every row;
    addRowClip v b  : entry (r, c) is max (v(r, c) + b(0, c)) 0    — the same, clipped below at the float zero.

  Each depends on row r of its row operand(s) only, so a block of consecutive rows of the result is the same
  function of the same block of rows (`scaleRows_rows`, `addRowOf_rows`, `addRowClip_rows`).
-/
import proofs.«135871_j87050397156003_1_alg».proof.Proof.LibRowsLayer

noncomputable section

namespace Cert.Sage

open Idealize.ShloMosaic Idealize.ShloMosaic.ValueIdx

variable {n N k c : Nat}

/-- Every row scaled by its own weight: entry (e, f) is h(e, f) · w(e, 0). -/
def scaleRows (h : Arr2 n c) (w : Arr2 n 1) : Arr2 n c :=
  fun i => h i * w (ix2 (rowOf i) (0 : Fin 1))

/-- A row vector, kept as a one-row array, added to every row. -/
def addRowOf (v : Arr2 n c) (b : Arr2 1 c) : Arr2 n c :=
  fun i => v i + b (ix2 (0 : Fin 1) (colOf i))

/-- The same, clipped below at the float zero. -/
def addRowClip (v : Arr2 n c) (b : Arr2 1 c) : Arr2 n c :=
  fun i => max (v i + b (ix2 (0 : Fin 1) (colOf i))) zeroF

/-- A block of rows of `scaleRows` is `scaleRows` of the blocks of rows. -/
theorem scaleRows_rows (H : Arr2 N c) (W : Arr2 N 1) (h : Arr2 n c) (w : Arr2 n 1)
    (I : (⟨2, ![N, c]⟩ : Shape).Idx) (i : (⟨2, ![n, c]⟩ : Shape).Idx)
    (hh : H I = h i) (hw : W (ix2 (rowOf I) (0 : Fin 1)) = w (ix2 (rowOf i) (0 : Fin 1))) :
    scaleRows H W I = scaleRows h w i := by
  unfold scaleRows; rw [hh, hw]

/-- A block of rows of `addRowOf` is `addRowOf` of the block of rows. -/
theorem addRowOf_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowOf V b I = addRowOf v b i := by
  unfold addRowOf
  have : colOf I = colOf i := Fin.ext hc
  rw [hv, this]

/-- A block of rows of `addRowClip` is `addRowClip` of the block of rows. -/
theorem addRowClip_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowClip V b I = addRowClip v b i := by
  unfold addRowClip
  have : colOf I = colOf i := Fin.ext hc
  rw [hv, this]

end Cert.Sage

end
-- ==== Proof.ClipBody.lean ====
/-
  The bias-and-clip body at an entry.

  The body adds a vector, recast as one row and spread down the rows, to the staged rows and clips the sum below at
  the float zero: entry (p, q) of the stored block is max (rows(p, q) + bias(q)) 0.
-/
import proofs.«135871_j87050397156003_1_alg».proof.Proof.Gen.KernelIdeal.Frame
import proofs.«135871_j87050397156003_1_alg».proof.Proof.LibGraphRows
import Idealize.ShloMosaic.Lib.Pipeline.Value
import Idealize.ShloMosaic.Lib.ValueIdx
import Idealize.ShloMosaic.Lib.ValueLayout

set_option maxRecDepth 16384

noncomputable section

namespace Cert.KernelIdeal.Clip

open Cert.KernelIdeal Cert.KernelIdeal.Gen Idealize.ShloMosaic Idealize.ShloMosaic.TcCoe Idealize.SL.Sem
open Idealize.ShloMosaic.ValueIdx Cert.Sage
open Idealize.ShloMosaic.Pipeline (Dat)

theorem zero_offsets2 : (![0, 0] : Fin 2 → Nat) = fun _ => 0 := funext fun a => by fin_cases a <;> rfl
theorem zero_offsets1 : (![0] : Fin 1 → Nat) = fun _ => 0 := funext fun a => by fin_cases a; rfl

/-- The first bias-and-clip body's stored block at entry (p, q). -/
theorem pay1_apply (x0 : Vec Ideal S5000x128 .f32) (x1 : Vec Ideal S128 .f32) (p : Fin 5000) (q : Fin 128) :
    k1_pay1 x0 x1 (ix2 p q)
      = addRowClip (n := 5000) (c := 128) x0 (shapeCast S1x128 x1 shapeCasts_S128_S1x128) (ix2 p q) := by
  unfold k1_pay1 addRowClip
  rw [shapeCast_self, maximumf_apply, addf_apply, broadcast_apply,
    broadcastTo_apply _ broadcasts_S1x128_S5000x128 (ix2 p q) (ix2 (0 : Fin 1) q)
      (fun a => by match a with | ⟨0, _⟩ => rfl | ⟨1, _⟩ => rfl)]
  rfl

/-- The second bias-and-clip body's likewise. -/
theorem pay3_apply (x0 : Vec Ideal S5000x128 .f32) (x1 : Vec Ideal S128 .f32) (p : Fin 5000) (q : Fin 128) :
    k3_pay1 x0 x1 (ix2 p q)
      = addRowClip (n := 5000) (c := 128) x0 (shapeCast S1x128 x1 shapeCasts_S128_S1x128) (ix2 p q) := by
  unfold k3_pay1 addRowClip
  rw [shapeCast_self, maximumf_apply, addf_apply, broadcast_apply,
    broadcastTo_apply _ broadcasts_S1x128_S5000x128 (ix2 p q) (ix2 (0 : Fin 1) q)
      (fun a => by match a with | ⟨0, _⟩ => rfl | ⟨1, _⟩ => rfl)]
  rfl

end Cert.KernelIdeal.Clip

end
-- ==== Proof.Region1.lean ====
/-
  Region 1 of the idealized kernel: the bias added and the sum clipped at zero, block of rows by block of rows.

  Point t of the eight stages rows 5000·t … 5000·t + 4999 of the aggregated array and the whole bias vector, and writes
  back the same rows of the result: entry (p, q) of its block is max (rows(p, q) + bias(q)) 0. That is entry
  (5000·t + p, q) of the same function of the whole array, and the eight blocks tile the 40000 rows.
-/
import proofs.«135871_j87050397156003_1_alg».proof.Proof.ClipBody

set_option maxRecDepth 16384

noncomputable section

namespace Cert.KernelIdeal.Clip1

open Cert.KernelIdeal Cert.KernelIdeal.Gen Cert.KernelIdeal.Clip Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The printed index maps over the grid: the rows' and the result's blocks move together, point t at block t; the
    bias vector's block is always the whole vector. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- A block of rows of the clipped sum, from the clipped sum of the block: the per-point fact, over plain arrays. -/
theorem block_of_clip (A : S40000x128.Idx → EReal) (b : S128.Idx → EReal)
    (x0 : Vec Ideal S5000x128 .f32) (x1 : Vec Ideal S128 .f32) (I : S40000x128.Idx) (p : Fin 5000) (q : Fin 128)
    (hq : (I 1).val = q.val) (h0 : A I = x0 (ix2 p q)) (h1 : x1 = b) :
    k1_pay1 x0 x1 (ix2 p q)
      = addRowClip (n := 40000) (c := 128) A (shapeCast S1x128 b shapeCasts_S128_S1x128) I := by
  subst h1
  exact (pay1_apply x0 x1 p q).trans (addRowClip_rows A x0 _ I (ix2 p q) hq h0).symm

/-- What point t writes back is block t of the clipped sum of the arrays the region found. -/
theorem flushed_eq (c : Dev nD) (t : Fin cfg1.N) :
    (dat1 V c).flushed 2 t = ((cfg1.win 2).blk t).view.read (Elt Ideal)
      (addRowClip (n := 40000) (c := 128) (V c main_v45) (shapeCast S1x128 (V c main_arg4) shapeCasts_S128_S1x128)) := by
  show (cfg1.win 2).cut (grid1.coords t) ((dat1 V c).after 2 t) = _
  rw [after1_2]
  unfold out1_2
  rw [View.canon_unit_zero zero_offsets2]
  simp only [View.ld_unit_zero (S := S5000x128) zero_offsets2, View.ld_unit_zero (S := S128) zero_offsets1]
  obtain ⟨e0, e1, e2, e3, e4⟩ := index_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = addRowClip (n := 40000) (c := 128) (V c main_v45) (shapeCast S1x128 (V c main_arg4) shapeCasts_S128_S1x128)
        (((cfg1.win 2).blk t).view.emb (ix2 p q))
  refine block_of_clip (V c main_v45) (V c main_arg4) (iblk1 V c 0 t) (iblk1 V c 1 t) _ p q ?_ ?_ ?_
  · show win1_2.index t (1 : Fin 2) * 128 + 1 * q.val = q.val
    omega
  · show V c main_v45 _ = V c main_v45 (((cfg1.win 0).blk t).view.emb (ix2 p q))
    refine congrArg (V c main_v45) (funext fun a => Fin.ext ?_)
    match a with
    | ⟨0, _⟩ =>
      show win1_2.index t (0 : Fin 2) * 5000 + 1 * p.val = win1_0.index t (0 : Fin 2) * 5000 + 1 * p.val
      omega
    | ⟨1, _⟩ =>
      show win1_2.index t (1 : Fin 2) * 128 + 1 * q.val = win1_0.index t (1 : Fin 2) * 128 + 1 * q.val
      omega
  · funext y
    show V c main_arg4 (((cfg1.win 1).blk t).view.emb y) = V c main_arg4 y
    refine congrArg (V c main_arg4) (funext fun a => Fin.ext ?_)
    match a with
    | ⟨0, _⟩ =>
      show win1_1.index t (0 : Fin 1) * 128 + 1 * (y 0).val = (y 0).val
      omega

/-- An index of the result array is in point t's block iff each coordinate is in the block's range on its axis. -/
theorem mem_block (t : Fin cfg1.N) (i : S40000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- The eight blocks tile the rows: row r is in the block of point r / 5000. -/
theorem covered (i : S40000x128.Idx) :
    ∃ t : Fin cfg1.N, (cfg1.win 2).flush t = true ∧ i ∈ ((cfg1.win 2).blk t).view.set := by
  have hi0 : (i 0).val < 40000 := (i 0).isLt
  have hi1 : (i 1).val < 128 := (i 1).isLt
  have hN : grid1.N = 8 := N_1
  have ht : (i 0).val / 5000 < cfg1.N := by show (i 0).val / 5000 < grid1.N; omega
  obtain ⟨e0, e1, e2, e3, e4⟩ := index_facts ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e3]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-- THE REGION'S RESULT: its output array ends holding the clipped sum of the array and the vector it found. -/
theorem final (c : Dev nD) :
    (dat1 V c).arrAt 2 cfg1.N
      = addRowClip (n := 40000) (c := 128) (V c main_v45) (shapeCast S1x128 (V c main_arg4) shapeCasts_S128_S1x128) :=
  (dat1 V c).arrAt_eq_of_cover 2 _ (fun t _ => flushed_eq V c t) covered

end Cert.KernelIdeal.Clip1

end
-- ==== Proof.Region2.lean ====
/-
  Region 2 of the idealized kernel: a dense product computed block of rows by block of rows is the whole product.

  Point t of the eight stages rows 5000·t … 5000·t + 4999 of the left operand and the whole right operand, and writes
  back the same rows of the result; its stored block is the rows-against-columns product of what it staged. Such a
  product reads only row r of its left operand at row r, so what point t writes back is block t of the product of the
  whole arrays; the eight blocks tile the 40000 rows, so the region leaves the whole product in its output array.
-/
import proofs.«135871_j87050397156003_1_alg».proof.Proof.DenseBody

set_option maxRecDepth 16384

noncomputable section

namespace Cert.KernelIdeal.Dense2

open Cert.KernelIdeal Cert.KernelIdeal.Gen Cert.KernelIdeal.Dense Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The printed index maps over the grid: the left operand's and the result's blocks move together down the rows,
    point t at block t; the right operand's block is always the whole array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of rows of a product, from the product of the block: the per-point fact, over plain arrays. -/
theorem block_of_product (A : S40000x128.Idx → EReal) (W : S128x128.Idx → EReal)
    (x0 : Vec Ideal S5000x128 .f32) (x1 : Vec Ideal S128x128 .f32) (I : S40000x128.Idx) (p : Fin 5000) (q : Fin 128)
    (hq : (I 1).val = q.val) (h0 : ∀ j : Fin 128, A (ix2 (rowOf I) j) = x0 (ix2 p j)) (h1 : x1 = W) :
    k2_pay1 x0 x1 (ix2 p q) = rowsMul (n := 40000) (k := 128) (c := 128) A W I := by
  subst h1
  refine (pay2_apply x0 x1 p q).trans (rowsMul_rows A x0 x1 I (ix2 p q) hq fun j => ?_).symm
  exact h0 j

/-- What point t writes back is block t of the product of the arrays the region found. -/
theorem flushed_eq (c : Dev nD) (t : Fin cfg2.N) :
    (dat2 V c).flushed 2 t = ((cfg2.win 2).blk t).view.read (Elt Ideal)
      (rowsMul (n := 40000) (k := 128) (c := 128) (V c main_v46) (V c main_arg5)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := index_facts t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = rowsMul (n := 40000) (k := 128) (c := 128) (V c main_v46) (V c main_arg5) (((cfg2.win 2).blk t).view.emb (ix2 p q))
  refine block_of_product (V c main_v46) (V c main_arg5) (iblk2 V c 0 t) (iblk2 V c 1 t) _ p q ?_ (fun j => ?_) ?_
  · show win2_2.index t (1 : Fin 2) * 128 + 1 * q.val = q.val
    omega
  · show V c main_v46 _ = V c main_v46 (((cfg2.win 0).blk t).view.emb (ix2 p j))
    refine congrArg (V c main_v46) (funext fun a => Fin.ext ?_)
    match a with
    | ⟨0, _⟩ =>
      show win2_2.index t (0 : Fin 2) * 5000 + 1 * p.val = win2_0.index t (0 : Fin 2) * 5000 + 1 * p.val
      omega
    | ⟨1, _⟩ =>
      show j.val = win2_0.index t (1 : Fin 2) * 128 + 1 * j.val
      omega
  · funext y
    show V c main_arg5 (((cfg2.win 1).blk t).view.emb y) = V c main_arg5 y
    refine congrArg (V c main_arg5) (funext fun a => Fin.ext ?_)
    match a with
    | ⟨0, _⟩ =>
      show win2_1.index t (0 : Fin 2) * 128 + 1 * (y 0).val = (y 0).val
      omega
    | ⟨1, _⟩ =>
      show win2_1.index t (1 : Fin 2) * 128 + 1 * (y 1).val = (y 1).val
      omega

/-- An index of the result array is in point t's block iff each coordinate is in the block's range on its axis. -/
theorem mem_block (t : Fin cfg2.N) (i : S40000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- The eight blocks tile the rows: row r is in the block of point r / 5000. -/
theorem covered (i : S40000x128.Idx) :
    ∃ t : Fin cfg2.N, (cfg2.win 2).flush t = true ∧ i ∈ ((cfg2.win 2).blk t).view.set := by
  have hi0 : (i 0).val < 40000 := (i 0).isLt
  have hi1 : (i 1).val < 128 := (i 1).isLt
  have hN : grid2.N = 8 := N_2
  have ht : (i 0).val / 5000 < cfg2.N := by show (i 0).val / 5000 < grid2.N; omega
  obtain ⟨e0, e1, e2, e3, e4, e5⟩ := index_facts ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

/-- THE REGION'S RESULT: its output array ends holding the product of the two arrays it found. -/
theorem final (c : Dev nD) :
    (dat2 V c).arrAt 2 cfg2.N = rowsMul (n := 40000) (k := 128) (c := 128) (V c main_v46) (V c main_arg5) :=
  (dat2 V c).arrAt_eq_of_cover 2 _ (fun t _ => flushed_eq V c t) covered

end Cert.KernelIdeal.Dense2

end
-- ==== Proof.Region3.lean ====
/-
  Region 3 of the idealized kernel: the bias added and the sum clipped at zero, block of rows by block of rows.

  Point t of the eight stages rows 5000·t … 5000·t + 4999 of the aggregated array and the whole bias vector, and writes
  back the same rows of the result: entry (p, q) of its block is max (rows(p, q) + bias(q)) 0. That is entry
  (5000·t + p, q) of the same function of the whole array, and the eight blocks tile the 40000 rows.
-/
import proofs.«135871_j87050397156003_1_alg».proof.Proof.ClipBody

set_option maxRecDepth 16384

noncomputable section

namespace Cert.KernelIdeal.Clip3

open Cert.KernelIdeal Cert.KernelIdeal.Gen Cert.KernelIdeal.Clip Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The printed index maps over the grid: the rows' and the result's blocks move together, point t at block t; the
    bias vector's block is always the whole vector. -/
theorem index_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- A block of rows of the clipped sum, from the clipped sum of the block: the per-point fact, over plain arrays. -/
theorem block_of_clip (A : S40000x128.Idx → EReal) (b : S128.Idx → EReal)
    (x0 : Vec Ideal S5000x128 .f32) (x1 : Vec Ideal S128 .f32) (I : S40000x128.Idx) (p : Fin 5000) (q : Fin 128)
    (hq : (I 1).val = q.val) (h0 : A I = x0 (ix2 p q)) (h1 : x1 = b) :
    k3_pay1 x0 x1 (ix2 p q)
      = addRowClip (n := 40000) (c := 128) A (shapeCast S1x128 b shapeCasts_S128_S1x128) I := by
  subst h1
  exact (pay3_apply x0 x1 p q).trans (addRowClip_rows A x0 _ I (ix2 p q) hq h0).symm

/-- What point t writes back is block t of the clipped sum of the arrays the region found. -/
theorem flushed_eq (c : Dev nD) (t : Fin cfg3.N) :
    (dat3 V c).flushed 2 t = ((cfg3.win 2).blk t).view.read (Elt Ideal)
      (addRowClip (n := 40000) (c := 128) (V c main_v85) (shapeCast S1x128 (V c main_arg6) shapeCasts_S128_S1x128)) := by
  show (cfg3.win 2).cut (grid3.coords t) ((dat3 V c).after 2 t) = _
  rw [after3_2]
  unfold out3_2
  rw [View.canon_unit_zero zero_offsets2]
  simp only [View.ld_unit_zero (S := S5000x128) zero_offsets2, View.ld_unit_zero (S := S128) zero_offsets1]
  obtain ⟨e0, e1, e2, e3, e4⟩ := index_facts t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = addRowClip (n := 40000) (c := 128) (V c main_v85) (shapeCast S1x128 (V c main_arg6) shapeCasts_S128_S1x128)
        (((cfg3.win 2).blk t).view.emb (ix2 p q))
  refine block_of_clip (V c main_v85) (V c main_arg6) (iblk3 V c 0 t) (iblk3 V c 1 t) _ p q ?_ ?_ ?_
  · show win3_2.index t (1 : Fin 2) * 128 + 1 * q.val = q.val
    omega
  · show V c main_v85 _ = V c main_v85 (((cfg3.win 0).blk t).view.emb (ix2 p q))
    refine congrArg (V c main_v85) (funext fun a => Fin.ext ?_)
    match a with
    | ⟨0, _⟩ =>
      show win3_2.index t (0 : Fin 2) * 5000 + 1 * p.val = win3_0.index t (0 : Fin 2) * 5000 + 1 * p.val
      omega
    | ⟨1, _⟩ =>
      show win3_2.index t (1 : Fin 2) * 128 + 1 * q.val = win3_0.index t (1 : Fin 2) * 128 + 1 * q.val
      omega
  · funext y
    show V c main_arg6 (((cfg3.win 1).blk t).view.emb y) = V c main_arg6 y
    refine congrArg (V c main_arg6) (funext fun a => Fin.ext ?_)
    match a with
    | ⟨0, _⟩ =>
      show win3_1.index t (0 : Fin 1) * 128 + 1 * (y 0).val = (y 0).val
      omega

/-- An index of the result array is in point t's block iff each coordinate is in the block's range on its axis. -/
theorem mem_block (t : Fin cfg3.N) (i : S40000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v86).slice (win3_2.rect t)).set ↔ _
  rw [View.set_slice_whole, Rect.mem_set_unit]
  exact Iff.rfl

/-- The eight blocks tile the rows: row r is in the block of point r / 5000. -/
theorem covered (i : S40000x128.Idx) :
    ∃ t : Fin cfg3.N, (cfg3.win 2).flush t = true ∧ i ∈ ((cfg3.win 2).blk t).view.set := by
  have hi0 : (i 0).val < 40000 := (i 0).isLt
  have hi1 : (i 1).val < 128 := (i 1).isLt
  have hN : grid3.N = 8 := N_3
  have ht : (i 0).val / 5000 < cfg3.N := by show (i 0).val / 5000 < grid3.N; omega
  obtain ⟨e0, e1, e2, e3, e4⟩ := index_facts ⟨(i 0).val / 5000, ht⟩
  refine ⟨⟨(i 0).val / 5000, ht⟩, flush3_2 _, ?_⟩
  rw [mem_block]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e3]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    omega

/-- THE REGION'S RESULT: its output array ends holding the clipped sum of the array and the vector it found. -/
theorem final (c : Dev nD) :
    (dat3 V c).arrAt 2 cfg3.N
      = addRowClip (n := 40000) (c := 128) (V c main_v85) (shapeCast S1x128 (V c main_arg6) shapeCasts_S128_S1x128) :=
  (dat3 V c).arrAt_eq_of_cover 2 _ (fun t _ => flushed_eq V c t) covered

end Cert.KernelIdeal.Clip3

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.LibLogSoftmax.lean ====
/-
  The log-softmax of the rows of a matrix, on the extended reals, as both programs compute it.

  For a row r of L: m(r) = max (−∞) (the maximum over the row, folded from −∞); s(r, q) = L(r, q) − m(r);
  the result at (r, q) is s(r, q) − log Σ_k exp s(r, k).

  The kernel's form: a lane maximum and a lane sum, each recast as a column and spread along the rows.
  The host's form: a reduce with a maximum body and a float sum from zero, each broadcast to a column and then
  along the rows. Both read, entry by entry, as the function above: the float sum from zero is 0 + Σ, and the
  exponential and the logarithm are one function of an extended real on both sides.
-/
import proofs.«135871_j87050397156003_1_alg».proof.Proof.LibGraphRows
import proofs.«135871_j87050397156003_1_alg».proof.Proof.LibKeepdims
import proofs.«135871_j87050397156003_1_alg».proof.Proof.LibRowLanes
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.Sage

open Idealize.ShloMosaic Idealize.ShloMosaic.ValueIdx
open scoped BigOperators

variable {n c : Nat}

/-- The float −∞ both programs start their maximum from. -/
def negInfF : EReal := Ideal.ofBits .f32 0xFF800000#32

/-- A row's maximum as both programs compute it: −∞ against the fold of `max` from −∞ over the row. -/
def rowMax (L : Arr2 n c) (r : Fin n) : EReal :=
  max negInfF ((Finset.univ : Finset (Fin c)).fold max negInfF fun k => L (ix2 r k))

/-- The log-softmax of every row. -/
def logSoftmaxRows (L : Arr2 n c) : Arr2 n c := fun i =>
  (L i - rowMax L (rowOf i)) - Ideal.log (∑ k : Fin c, Ideal.exp (L (ix2 (rowOf i) k) - rowMax L (rowOf i)))

/-- The logarithm of a vector, read at an index, is the logarithm of the entry. -/
theorem log_apply {s : Shape} {φ : FTy} (v : FVec Ideal s φ) (i : s.Idx) : log v i = Ideal.log (v i) := rfl

/-- The host's logarithm of an array likewise. -/
theorem hostLog_apply {s : Shape} {φ : FTy} (v : FVec Ideal s φ) (i : s.Idx) : Host.log v i = Ideal.log (v i) := rfl

/-! ## The kernel's form -/

/-- The kernel's operations on the logits. -/
def laneLogSoftmax (L : FVec Ideal ⟨2, ![n, c]⟩ .f32)
    (hr : (⟨2, ![n, c]⟩ : Shape).Reduces [1] ⟨1, ![n]⟩) (hc : (⟨1, ![n]⟩ : Shape).ShapeCasts ⟨2, ![n, 1]⟩)
    (hb : (⟨2, ![n, 1]⟩ : Shape).Broadcasts ⟨2, ![n, c]⟩) : FVec Ideal ⟨2, ![n, c]⟩ .f32 :=
  subf
    (subf L (broadcastTo ⟨2, ![n, c]⟩ (shapeCast ⟨2, ![n, 1]⟩ (maximumf (broadcast ⟨1, ![n]⟩ (Scalar.ofBits (F := Ideal) .f32 0xFF800000#32))
      (multiReduction (F := Ideal) .maximumf [1] ⟨1, ![n]⟩ L 0xFF800000#32 hr (.inl rfl) rfl)) hc) hb))
    (broadcastTo ⟨2, ![n, c]⟩ (log (shapeCast ⟨2, ![n, 1]⟩ (multiReduction (F := Ideal) .add [1] ⟨1, ![n]⟩ (exp
      (subf L (broadcastTo ⟨2, ![n, c]⟩ (shapeCast ⟨2, ![n, 1]⟩ (maximumf (broadcast ⟨1, ![n]⟩ (Scalar.ofBits (F := Ideal) .f32 0xFF800000#32))
        (multiReduction (F := Ideal) .maximumf [1] ⟨1, ![n]⟩ L 0xFF800000#32 hr (.inl rfl) rfl)) hc) hb)))
      0x00000000#32 hr (.inl rfl) rfl) hc)) hb)

/-- The shifted logits of the kernel's form at an entry. -/
theorem lane_shift_apply (L : FVec Ideal ⟨2, ![n, c]⟩ .f32)
    (hr : (⟨2, ![n, c]⟩ : Shape).Reduces [1] ⟨1, ![n]⟩) (hc : (⟨1, ![n]⟩ : Shape).ShapeCasts ⟨2, ![n, 1]⟩)
    (hb : (⟨2, ![n, 1]⟩ : Shape).Broadcasts ⟨2, ![n, c]⟩) (r : Fin n) (k : Fin c) :
    subf L (broadcastTo ⟨2, ![n, c]⟩ (shapeCast ⟨2, ![n, 1]⟩ (maximumf (broadcast ⟨1, ![n]⟩ (Scalar.ofBits (F := Ideal) .f32 0xFF800000#32))
      (multiReduction (F := Ideal) .maximumf [1] ⟨1, ![n]⟩ L 0xFF800000#32 hr (.inl rfl) rfl)) hc) hb) (ix2 r k)
      = L (ix2 r k) - rowMax (n := n) (c := c) L r := by
  rw [subf_apply, Cert.LibKeepdims.broadcastTo_a1_ab_apply _ hb r k, Cert.LibKeepdims.shapeCast_a_a1_apply _ hc r (0 : Fin 1),
    maximumf_apply, broadcast_apply, Cert.LibRowLanes.max_row_apply L 0xFF800000#32 hr (.inl rfl) rfl r]
  rfl

/-- The kernel's form is the log-softmax of every row. -/
theorem laneLogSoftmax_apply (L : FVec Ideal ⟨2, ![n, c]⟩ .f32)
    (hr : (⟨2, ![n, c]⟩ : Shape).Reduces [1] ⟨1, ![n]⟩) (hc : (⟨1, ![n]⟩ : Shape).ShapeCasts ⟨2, ![n, 1]⟩)
    (hb : (⟨2, ![n, 1]⟩ : Shape).Broadcasts ⟨2, ![n, c]⟩) (r : Fin n) (q : Fin c) :
    laneLogSoftmax L hr hc hb (ix2 r q) = logSoftmaxRows (n := n) (c := c) L (ix2 r q) := by
  unfold laneLogSoftmax logSoftmaxRows
  rw [subf_apply, lane_shift_apply L hr hc hb r q, Cert.LibKeepdims.broadcastTo_a1_ab_apply _ hb r q]
  have hrow : rowOf (ix2 r q) = r := Fin.ext rfl
  rw [hrow]
  refine congrArg (L (ix2 r q) - rowMax (n := n) (c := c) L r - ·) ?_
  rw [log_apply, Cert.LibKeepdims.shapeCast_a_a1_apply _ hc r (0 : Fin 1), Cert.LibRowLanes.sum_row_apply _ 0x00000000#32 hr (.inl rfl) rfl r]
  refine congrArg Ideal.log (Finset.sum_congr rfl fun k _ => ?_)
  rw [Cert.LibKeepdims.exp_apply, lane_shift_apply L hr hc hb r k]

/-! ## The host's form -/

/-- A column `[n, 1]` broadcast along the rows of `[n, c]` reads, at `(r, q)`, the column's entry of row `r`. -/
theorem bcast_cols_apply {α : Type} (v : (⟨2, ![n, 1]⟩ : Shape).Idx → α)
    (h : (⟨2, ![n, 1]⟩ : Shape).BroadcastsInDim ⟨2, ![n, c]⟩ (![0, 1] : Fin 2 → Fin 2)) (r : Fin n) (q : Fin c) :
    broadcastInDim ⟨2, ![n, c]⟩ ![0, 1] h v (ix2 r q) = v (ix2 r (0 : Fin 1)) := by
  refine broadcastInDim_apply _ h v (ix2 r q) (ix2 r (0 : Fin 1)) fun ax => ?_
  match ax with
  | ⟨0, _⟩ =>
    show r.val = if n = 1 then 0 else r.val
    split
    · have := r.isLt; omega
    · rfl
  | ⟨1, _⟩ => rfl

/-- A vector `[n]` broadcast to the column `[n, 1]` reads, at `(r, u)`, the vector at `r`. -/
theorem bcast_col_apply {α : Type} (v : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h v (ix2 r u) = v (ix1 r) := by
  refine broadcastInDim_apply _ h v (ix2 r u) (ix1 r) fun ax => ?_
  match ax with
  | ⟨0, _⟩ =>
    show r.val = if n = 1 then 0 else r.val
    split
    · have := r.isLt; omega
    · rfl

/-- The host's operations on the logits. -/
def hostLogSoftmax (L : FVec Ideal ⟨2, ![n, c]⟩ .f32)
    (hr' : (⟨2, ![n, c]⟩ : Shape).ReducesTo [1] ⟨1, ![n]⟩) (hu : 0 < (⟨0, ![]⟩ : Shape).numel)
    (h0 : (⟨0, ![]⟩ : Shape).BroadcastsInDim ⟨1, ![n]⟩ (![] : Fin 0 → Fin 1))
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) : FVec Ideal ⟨2, ![n, c]⟩ .f32 :=
  subf
    (subf L (broadcastInDim ⟨2, ![n, c]⟩ ![0, 1] h2 (broadcastInDim ⟨2, ![n, 1]⟩ ![0] h1
      (maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr' hu)))))
    (broadcastInDim ⟨2, ![n, c]⟩ ![0, 1] h2 (Host.log (broadcastInDim ⟨2, ![n, 1]⟩ ![0] h1
      (Host.reduceAdd (Host.exp
        (subf L (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf L (constant (F := Ideal) ⟨0, ![]⟩ .f32 0xFF800000#32) hr' hu))))))
        (constant (F := Ideal) ⟨0, ![]⟩ .f32 0x00000000#32) hr' hu))))

/-- The shifted logits of the host's form at an entry. -/
theorem host_shift_apply (L : FVec Ideal ⟨2, ![n, c]⟩ .f32)
    (hr' : (⟨2, ![n, c]⟩ : Shape).ReducesTo [1] ⟨1, ![n]⟩) (hr : (⟨2, ![n, c]⟩ : Shape).Reduces [1] ⟨1, ![n]⟩)
    (hu : 0 < (⟨0, ![]⟩ : Shape).numel)
    (h0 : (⟨0, ![]⟩ : Shape).BroadcastsInDim ⟨1, ![n]⟩ (![] : Fin 0 → Fin 1))
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (r : Fin n) (k : Fin c) :
    subf L (broadcastInDim ⟨2, ![n, c]⟩ ![0, 1] h2 (broadcastInDim ⟨2, ![n, 1]⟩ ![0] h1
      (maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr' hu)))) (ix2 r k)
      = L (ix2 r k) - rowMax (n := n) (c := c) L r := by
  rw [subf_apply, bcast_cols_apply _ h2 r k, bcast_col_apply _ h1 r (0 : Fin 1), maximumf_apply,
    broadcastInDim_apply _ h0 _ (ix1 r) ix0 (fun ax => ax.elim0),
    Host.reduce_eq_fold_single FloatOps.maximumf L _ hr' hr hu (ix1 r)]
  unfold rowMax
  refine congrArg (L (ix2 r k) - max negInfF ·) ?_
  exact congrArg (Finset.univ.fold max negInfF) (funext fun j => congrArg L (Cert.LibRowLanes.lift_row hr r j))

/-- The host's form is the log-softmax of every row. -/
theorem hostLogSoftmax_apply (L : FVec Ideal ⟨2, ![n, c]⟩ .f32)
    (hr' : (⟨2, ![n, c]⟩ : Shape).ReducesTo [1] ⟨1, ![n]⟩) (hr : (⟨2, ![n, c]⟩ : Shape).Reduces [1] ⟨1, ![n]⟩)
    (hu : 0 < (⟨0, ![]⟩ : Shape).numel)
    (h0 : (⟨0, ![]⟩ : Shape).BroadcastsInDim ⟨1, ![n]⟩ (![] : Fin 0 → Fin 1))
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (r : Fin n) (q : Fin c) :
    hostLogSoftmax L hr' hu h0 h1 h2 (ix2 r q) = logSoftmaxRows (n := n) (c := c) L (ix2 r q) := by
  unfold hostLogSoftmax logSoftmaxRows
  rw [subf_apply, host_shift_apply L hr' hr hu h0 h1 h2 r q, bcast_cols_apply _ h2 r q]
  have hrow : rowOf (ix2 r q) = r := Fin.ext rfl
  rw [hrow]
  refine congrArg (L (ix2 r q) - rowMax (n := n) (c := c) L r - ·) ?_
  rw [hostLog_apply, bcast_col_apply _ h1 r (0 : Fin 1)]
  simp only [Host.reduceAdd, Ideal.hostReduceAdd_def]
  rw [Ideal.hostReduceAdd_single hr' hr, constant_apply, Ideal.ofBits_zero_f32, zero_add]
  refine congrArg Ideal.log (Finset.sum_congr rfl fun k _ => ?_)
  rw [Cert.LibRowLanes.lift_row hr r k, Cert.LibKeepdims.hostExp_apply, host_shift_apply L hr' hr hu h0 h1 h2 r k]

end Cert.Sage

end
-- ==== Proof.Region4.lean ====
/-
  Region 4 of the idealized kernel: the linear head and the log-softmax of its rows, in one grid point.

  The one point stages the pooled rows [256, 128], the head's weights [128, 10] and its bias [10] whole, and stores
  the whole result [256, 10]: the logits L(r, q) = Σ_j pooled(r, j) · W(j, q) + b(q), then for each row the maximum
  m(r) (from −∞), the shifted row s(r, ·) = L(r, ·) − m(r), and s(r, q) − log Σ_k exp s(r, k). The block is the whole
  array, so the array the region leaves is that function of the arrays it found.
-/
import proofs.«135871_j87050397156003_1_alg».proof.Proof.Gen.KernelIdeal.Frame
import proofs.«135871_j87050397156003_1_alg».proof.Proof.LibRowsDot
import proofs.«135871_j87050397156003_1_alg».proof.Proof.LibLogSoftmax
import Idealize.ShloMosaic.Lib.Pipeline.Value
import Idealize.ShloMosaic.Lib.ValueIdx
import Idealize.ShloMosaic.Lib.ValueLayout

set_option maxRecDepth 16384

noncomputable section

namespace Cert.KernelIdeal.Head

open Cert.KernelIdeal Cert.KernelIdeal.Gen Idealize.ShloMosaic Idealize.ShloMosaic.TcCoe Idealize.SL.Sem
open Idealize.ShloMosaic.ValueIdx Cert.Sage
open Idealize.ShloMosaic.Pipeline (Dat)

theorem zero_offsets2 : (![0, 0] : Fin 2 → Nat) = fun _ => 0 := funext fun a => by fin_cases a <;> rfl
theorem zero_offsets1 : (![0] : Fin 1 → Nat) = fun _ => 0 := funext fun a => by fin_cases a; rfl

/-! ## The body at an entry -/

/-- The head's product record: the second axis of the pooled rows against the first of the weights. -/
abbrev D₄ : DotDims S256x128 S128x10 S256x10 := dot_S256x128_S128x10_S256x10_1_0_0_1_n_n

theorem d4_l0 (i : S256x10.Idx) (q : D₄.contr.Idx) : (D₄.lhsIdx i q 0).val = (i 0).val := by
  unfold DotDims.lhsIdx
  rw [dif_neg (show ¬(0 : Fin S256x128.rank) ∈ D₄.lhsBatch by decide), dif_pos (show (0 : Fin S256x128.rank) ∈ D₄.lhsNonContracting by decide)]
  rfl
theorem d4_l1 (i : S256x10.Idx) (q : D₄.contr.Idx) : (D₄.lhsIdx i q 1).val = (q ⟨0, by decide⟩).val :=
  D₄.lhsIdx_val_of_single rfl i q
theorem d4_r0 (i : S256x10.Idx) (q : D₄.contr.Idx) : (D₄.rhsIdx i q 0).val = (q ⟨0, by decide⟩).val :=
  D₄.rhsIdx_val_of_single rfl i q
theorem d4_r1 (i : S256x10.Idx) (q : D₄.contr.Idx) : (D₄.rhsIdx i q 1).val = (i 1).val := by
  unfold DotDims.rhsIdx
  rw [dif_neg (show ¬(1 : Fin S128x10.rank) ∈ D₄.rhsBatch by decide), dif_pos (show (1 : Fin S128x10.rank) ∈ D₄.rhsNonContracting by decide)]
  rfl

/-- The logits the body forms: the product into zeros plus the bias spread down the rows. -/
def bodyLogits (x0 : Vec Ideal S256x128 .f32) (x1 : Vec Ideal S128x10 .f32) (x2 : Vec Ideal S10 .f32) : FVec Ideal S256x10 .f32 :=
  addf (matmul D₄ none (truncf .bf16 (shapeCast S256x128 x0 shapeCasts_S256x128_S256x128) bitsLt_bf16_f32) (truncf .bf16 x1 bitsLt_bf16_f32)
      (constant S256x10 .f32 0x00000000#32))
    (broadcastTo S256x10 (shapeCast S1x10 x2 shapeCasts_S10_S1x10) broadcasts_S1x10_S256x10)

/-- The body is the lane form of the log-softmax on those logits. -/
theorem pay4_eq (x0 : Vec Ideal S256x128 .f32) (x1 : Vec Ideal S128x10 .f32) (x2 : Vec Ideal S10 .f32) :
    k4_pay1 x0 x1 x2
      = laneLogSoftmax (n := 256) (c := 10) (bodyLogits x0 x1 x2) reduces_S256x10_S256 shapeCasts_S256_S256x1 broadcasts_S256x1_S256x10 := rfl

/-- The body's logits at an entry: the row–column sum plus the bias. -/
theorem bodyLogits_apply (x0 : Vec Ideal S256x128 .f32) (x1 : Vec Ideal S128x10 .f32) (x2 : Vec Ideal S10 .f32)
    (r : Fin 256) (q : Fin 10) :
    bodyLogits x0 x1 x2 (ix2 r q)
      = addRowOf (n := 256) (c := 10) (rowsMul (n := 256) (k := 128) (c := 10) x0 x1) (shapeCast S1x10 x2 shapeCasts_S10_S1x10) (ix2 r q) := by
  unfold bodyLogits addRowOf
  rw [addf_apply, shapeCast_self, matmul_zero_rows D₄ rfl rfl d4_l0 d4_l1 d4_r0 d4_r1 none _ _ r q,
    broadcastTo_apply _ broadcasts_S1x10_S256x10 (ix2 r q) (ix2 (0 : Fin 1) q)
      (fun a => by match a with | ⟨0, _⟩ => rfl | ⟨1, _⟩ => rfl)]
  rfl

/-- The stored block at an entry. -/
theorem pay4_apply (x0 : Vec Ideal S256x128 .f32) (x1 : Vec Ideal S128x10 .f32) (x2 : Vec Ideal S10 .f32)
    (r : Fin 256) (q : Fin 10) :
    k4_pay1 x0 x1 x2 (ix2 r q)
      = logSoftmaxRows (n := 256) (c := 10)
          (addRowOf (n := 256) (c := 10) (rowsMul (n := 256) (k := 128) (c := 10) x0 x1) (shapeCast S1x10 x2 shapeCasts_S10_S1x10)) (ix2 r q) := by
  rw [pay4_eq, laneLogSoftmax_apply]
  refine congrArg (fun L => logSoftmaxRows (n := 256) (c := 10) L (ix2 r q)) (funext fun i => ?_)
  obtain ⟨p, s, rfl⟩ : ∃ (p : Fin 256) (s : Fin 10), i = ix2 p s := ⟨i 0, i 1, eq_ix2 i⟩
  exact bodyLogits_apply x0 x1 x2 p s

/-! ## The region -/

variable (V : (c : Dev nD) → (b : Ref sig .tc) → Buf (Elt Ideal) ((c : Thread nD τ).loc b))

/-- The printed index maps at the one grid point: every window's block is its whole array. -/
theorem index_facts : ∀ t : Fin cfg4.N, win4_0.index t (0 : Fin 2) = 0 ∧ win4_0.index t (1 : Fin 2) = 0
    ∧ win4_1.index t (0 : Fin 2) = 0 ∧ win4_1.index t (1 : Fin 2) = 0 ∧ win4_2.index t (0 : Fin 1) = 0
    ∧ win4_3.index t (0 : Fin 2) = 0 ∧ win4_3.index t (1 : Fin 2) = 0 :=
  (by decide +kernel : ∀ t : Fin grid4.N, _)

/-- The per-point fact over plain arrays: the stored block, of blocks that are the whole arrays. -/
theorem whole_block (P : S256x128.Idx → EReal) (W : S128x10.Idx → EReal) (b : S10.Idx → EReal)
    (x0 : Vec Ideal S256x128 .f32) (x1 : Vec Ideal S128x10 .f32) (x2 : Vec Ideal S10 .f32) (I : S256x10.Idx)
    (r : Fin 256) (q : Fin 10) (hI : I = ix2 r q) (h0 : x0 = P) (h1 : x1 = W) (h2 : x2 = b) :
    k4_pay1 x0 x1 x2 (ix2 r q)
      = logSoftmaxRows (n := 256) (c := 10)
          (addRowOf (n := 256) (c := 10) (rowsMul (n := 256) (k := 128) (c := 10) P W) (shapeCast S1x10 b shapeCasts_S10_S1x10)) I := by
  subst h0 h1 h2 hI
  exact pay4_apply x0 x1 x2 r q

/-- What the one point writes back is the whole result of the arrays the region found. -/
theorem flushed_eq (c : Dev nD) (t : Fin cfg4.N) :
    (dat4 V c).flushed 3 t = ((cfg4.win 3).blk t).view.read (Elt Ideal)
      (logSoftmaxRows (n := 256) (c := 10)
        (addRowOf (n := 256) (c := 10) (rowsMul (n := 256) (k := 128) (c := 10) (V c main_v98) (V c main_arg7))
          (shapeCast S1x10 (V c main_arg8) shapeCasts_S10_S1x10))) := by
  show (cfg4.win 3).cut (grid4.coords t) ((dat4 V c).after 3 t) = _
  rw [after4_3]
  unfold out4_3
  rw [View.canon_unit_zero zero_offsets2]
  simp only [View.ld_unit_zero (S := S256x128) zero_offsets2, View.ld_unit_zero (S := S128x10) zero_offsets2,
    View.ld_unit_zero (S := S10) zero_offsets1]
  obtain ⟨e0, e1, e2, e3, e4, e5, e6⟩ := index_facts t
  funext j
  obtain ⟨r, q, rfl⟩ : ∃ (r : Fin 256) (q : Fin 10), j = ix2 r q := ⟨j 0, j 1, eq_ix2 j⟩
  show k4_pay1 (iblk4 V c 0 t) (iblk4 V c 1 t) (iblk4 V c 2 t) (ix2 r q)
    = logSoftmaxRows (n := 256) (c := 10)
        (addRowOf (n := 256) (c := 10) (rowsMul (n := 256) (k := 128) (c := 10) (V c main_v98) (V c main_arg7))
          (shapeCast S1x10 (V c main_arg8) shapeCasts_S10_S1x10)) (((cfg4.win 3).blk t).view.emb (ix2 r q))
  refine whole_block (V c main_v98) (V c main_arg7) (V c main_arg8) (iblk4 V c 0 t) (iblk4 V c 1 t) (iblk4 V c 2 t) _ r q ?_ ?_ ?_ ?_
  · funext a
    apply Fin.ext
    match a with
    | ⟨0, _⟩ =>
      show win4_3.index t (0 : Fin 2) * 256 + 1 * r.val = r.val
      omega
    | ⟨1, _⟩ =>
      show win4_3.index t (1 : Fin 2) * 10 + 1 * q.val = q.val
      omega
  · funext y
    show V c main_v98 (((cfg4.win 0).blk t).view.emb y) = V c main_v98 y
    refine congrArg (V c main_v98) (funext fun a => Fin.ext ?_)
    match a with
    | ⟨0, _⟩ =>
      show win4_0.index t (0 : Fin 2) * 256 + 1 * (y 0).val = (y 0).val
      omega
    | ⟨1, _⟩ =>
      show win4_0.index t (1 : Fin 2) * 128 + 1 * (y 1).val = (y 1).val
      omega
  · funext y
    show V c main_arg7 (((cfg4.win 1).blk t).view.emb y) = V c main_arg7 y
    refine congrArg (V c main_arg7) (funext fun a => Fin.ext ?_)
    match a with
    | ⟨0, _⟩ =>
      show win4_1.index t (0 : Fin 2) * 128 + 1 * (y 0).val = (y 0).val
      omega
    | ⟨1, _⟩ =>
      show win4_1.index t (1 : Fin 2) * 10 + 1 * (y 1).val = (y 1).val
      omega
  · funext y
    show V c main_arg8 (((cfg4.win 2).blk t).view.emb y) = V c main_arg8 y
    refine congrArg (V c main_arg8) (funext fun a => Fin.ext ?_)
    match a with
    | ⟨0, _⟩ =>
      show win4_2.index t (0 : Fin 1) * 10 + 1 * (y 0).val = (y 0).val
      omega

/-- An index of the result array is in the point's block iff each coordinate is in the block's range on its axis. -/
theorem mem_block (t : Fin cfg4.N) (i : S256x10.Idx) :
    i ∈ ((cfg4.win 3).blk t).view.set ↔ ∀ a : Fin 2, win4_3.index t a * S256x10.size a ≤ (i a).val ∧ (i a).val < win4_3.index t a * S256x10.size a + S256x10.size a := by
  show i ∈ ((View.whole main_v99).slice (win4_3.rect t)).set ↔ _
  rw [View.set_slice_whole, Rect.mem_set_unit]
  exact Iff.rfl

/-- The one block is the whole array. -/
theorem covered (i : S256x10.Idx) :
    ∃ t : Fin cfg4.N, (cfg4.win 3).flush t = true ∧ i ∈ ((cfg4.win 3).blk t).view.set := by
  have hi0 : (i 0).val < 256 := (i 0).isLt
  have hi1 : (i 1).val < 10 := (i 1).isLt
  have hN : grid4.N = 1 := N_4
  have ht : 0 < cfg4.N := by show 0 < grid4.N; omega
  obtain ⟨e0, e1, e2, e3, e4, e5, e6⟩ := index_facts ⟨0, ht⟩
  refine ⟨⟨0, ht⟩, flush4_3 _, ?_⟩
  rw [mem_block]
  intro a
  match a with
  | ⟨0, _⟩ =>
    show win4_3.index ⟨0, ht⟩ (0 : Fin 2) * 256 ≤ (i 0).val ∧ (i 0).val < win4_3.index ⟨0, ht⟩ (0 : Fin 2) * 256 + 256
    omega
  | ⟨1, _⟩ =>
    show win4_3.index ⟨0, ht⟩ (1 : Fin 2) * 10 ≤ (i 1).val ∧ (i 1).val < win4_3.index ⟨0, ht⟩ (1 : Fin 2) * 10 + 10
    omega

/-- THE REGION'S RESULT: its output array ends holding the log-softmax of the head's logits of the arrays it found. -/
theorem final (c : Dev nD) :
    (dat4 V c).arrAt 3 cfg4.N
      = logSoftmaxRows (n := 256) (c := 10)
          (addRowOf (n := 256) (c := 10) (rowsMul (n := 256) (k := 128) (c := 10) (V c main_v98) (V c main_arg7))
            (shapeCast S1x10 (V c main_arg8) shapeCasts_S10_S1x10)) :=
  (dat4 V c).arrAt_eq_of_cover 3 _ (fun t _ => flushed_eq V c t) covered

end Cert.KernelIdeal.Head

end
-- ==== Proof.Steps.lean ====
/-
  The reference's result as a composition of nine steps.

  Between the dense products and the bias-and-clip steps the reference does index plumbing that depends on the edge
  list and the graph ids only: a degree count, a normalisation of each edge, a gather of rows, a scaling, a
  scatter-add of rows (the aggregation of one graph-convolution layer, `agg1`, `agg2`), and at the end a mean over
  each graph's nodes (`pool`). Each step below is the reference's own operations with the array that enters it made a
  variable; the reference's result is their composition (`result_eq`), by unfolding.
-/
import proofs.«135871_j87050397156003_1_alg».proof.Proof.RefRead

noncomputable section

namespace Cert.Steps

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first dense product. -/
def dense1 (x0 : (⟨S40000x128, .f32⟩ : BufTy).Contents (Elt F)) (x3 : (⟨S128x128, .f32⟩ : BufTy).Contents (Elt F)) : (⟨S40000x128, .f32⟩ : BufTy).Contents (Elt F) :=
  Host.dotGeneral dot_S40000x128_S128x128_S40000x128_1_0_0_1_n_n none x0 x3

/-- The first layer's aggregation of the rows `A` along the edges. -/
def agg1 (A : (⟨S40000x128, .f32⟩ : BufTy).Contents (Elt F)) (x1 : (⟨S2x640000, .i32⟩ : BufTy).Contents (Elt F)) : (⟨S40000x128, .f32⟩ : BufTy).Contents (Elt F) :=
  Host.scatterAdd scatter_S40000x128_S680000x1_S680000x128_1_0_0_1 (val_main_v43 (F := F)) (val_main_v44 (F := F) x1)
    (mulf (Host.gather gather_S40000x128_S680000x1_S680000x128_1_0_n_n_0_1_1128 A (val_main_v38 (F := F) x1)) (val_main_v41 (F := F) x1))

/-- The first layer's bias added and the sum clipped at zero. -/
def clip1 (A : (⟨S40000x128, .f32⟩ : BufTy).Contents (Elt F)) (x4 : (⟨S128, .f32⟩ : BufTy).Contents (Elt F)) : (⟨S40000x128, .f32⟩ : BufTy).Contents (Elt F) :=
  maximumf (addf A (val_main_v47 (F := F) x4)) (val_main_call1_v0 (F := F))

/-- The second dense product. -/
def dense2 (A : (⟨S40000x128, .f32⟩ : BufTy).Contents (Elt F)) (x5 : (⟨S128x128, .f32⟩ : BufTy).Contents (Elt F)) : (⟨S40000x128, .f32⟩ : BufTy).Contents (Elt F) :=
  Host.dotGeneral dot_S40000x128_S128x128_S40000x128_1_0_0_1_n_n none A x5

/-- The second layer's aggregation. -/
def agg2 (A : (⟨S40000x128, .f32⟩ : BufTy).Contents (Elt F)) (x1 : (⟨S2x640000, .i32⟩ : BufTy).Contents (Elt F)) : (⟨S40000x128, .f32⟩ : BufTy).Contents (Elt F) :=
  Host.scatterAdd scatter_S40000x128_S680000x1_S680000x128_1_0_0_1 (val_main_v86 (F := F)) (val_main_v87 (F := F) x1)
    (mulf (Host.gather gather_S40000x128_S680000x1_S680000x128_1_0_n_n_0_1_1128 A (val_main_v81 (F := F) x1)) (val_main_v84 (F := F) x1))

/-- The second layer's bias and clip. -/
def clip2 (A : (⟨S40000x128, .f32⟩ : BufTy).Contents (Elt F)) (x6 : (⟨S128, .f32⟩ : BufTy).Contents (Elt F)) : (⟨S40000x128, .f32⟩ : BufTy).Contents (Elt F) :=
  maximumf (addf A (val_main_v90 (F := F) x6)) (val_main_call3_v0 (F := F))

/-- The mean of the node rows `H` over each graph. -/
def pool (H : (⟨S40000x128, .f32⟩ : BufTy).Contents (Elt F)) (x2 : (⟨S40000, .i32⟩ : BufTy).Contents (Elt F)) : (⟨S256x128, .f32⟩ : BufTy).Contents (Elt F) :=
  Host.divf (Host.scatterAdd scatter_S256x128_S40000x1_S40000x128_1_0_0_1 (val_main_v93 (F := F)) (val_main_v94 (F := F) x2) H)
    (val_main_v103 (F := F) x2)

/-- The logits of the pooled rows. -/
def logits (P : (⟨S256x128, .f32⟩ : BufTy).Contents (Elt F)) (x7 : (⟨S128x10, .f32⟩ : BufTy).Contents (Elt F)) (x8 : (⟨S10, .f32⟩ : BufTy).Contents (Elt F)) : (⟨S256x10, .f32⟩ : BufTy).Contents (Elt F) :=
  addf (Host.dotGeneral dot_S256x128_S128x10_S256x10_1_0_0_1_n_n none P x7) (val_main_v107 (F := F) x8)

/-- The reference's log-softmax of the rows of `L`, operation by operation. -/
def logSoftmax (L : (⟨S256x10, .f32⟩ : BufTy).Contents (Elt F)) : (⟨S256x10, .f32⟩ : BufTy).Contents (Elt F) :=
  subf
    (subf L (broadcastInDim S256x10 ![0, 1] bcast_S256x1_S256x10_0_1 (broadcastInDim S256x1 ![0] bcast_S256_S256x1_0
      (maximumf (val_main_call4_v1 (F := F)) (Host.reduce FloatOps.maximumf L (val_main_call4_cst (F := F)) reducesTo_S256x10_S256_d1 h_S_)))))
    (broadcastInDim S256x10 ![0, 1] bcast_S256x1_S256x10_0_1 (Host.log (broadcastInDim S256x1 ![0] bcast_S256_S256x1_0
      (Host.reduceAdd (Host.exp
        (subf L (broadcastInDim S256x10 ![0, 1] bcast_S256x1_S256x10_0_1 (broadcastInDim S256x1 ![0] bcast_S256_S256x1_0
          (maximumf (val_main_call4_v1 (F := F)) (Host.reduce FloatOps.maximumf L (val_main_call4_cst (F := F)) reducesTo_S256x10_S256_d1 h_S_))))))
        (val_main_call4_cst_1 (F := F)) reducesTo_S256x10_S256_d1 h_S_))))

/-- THE REFERENCE'S RESULT is the nine steps composed. -/
theorem result_eq (x0 : (⟨S40000x128, .f32⟩ : BufTy).Contents (Elt F)) (x1 : (⟨S2x640000, .i32⟩ : BufTy).Contents (Elt F)) (x2 : (⟨S40000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x10, .f32⟩ : BufTy).Contents (Elt F)) (x8 : (⟨S10, .f32⟩ : BufTy).Contents (Elt F)) :
    val_main_v109 (F := F) x0 x1 x2 x3 x4 x5 x6 x7 x8
      = logSoftmax (logits (pool (clip2 (agg2 (dense2 (clip1 (agg1 (dense1 x0 x3) x1) x4) x5) x1) x6) x2) x7 x8) := by
  unfold val_main_v109 val_main_call4_v10 val_main_call4_v9 val_main_call4_v8 val_main_call4_v7 val_main_call4_v6 val_main_call4_v5
    val_main_call4_v4 val_main_call4_v3 val_main_call4_v2 val_main_call4_v0 val_main_v108 val_main_v105 val_main_v104 val_main_v95
    val_main_v92 val_main_v91 val_main_v88 val_main_v85 val_main_v82 val_main_v50 val_main_v49 val_main_v48 val_main_v45 val_main_v42
    val_main_v39 val_main_v7
  rfl

end Cert.Steps

end
-- ==== Proof.Stretches.lean ====
/-
  The idealized kernel's host stretches between its regions.

  Around its regions @main runs the same index plumbing as the reference: before the first region the two index
  vectors of the edge list (sources and targets, each followed by the self-loops); after each dense product that
  layer's aggregation — the degree count, the nodes' normalising weights (through an outlined choice function), the
  gather of rows along the edges, their scaling and the scatter-add at the targets —; after the last bias-and-clip the
  mean over each graph. Each stretch, from any buffer contents, leaves the reference's value of the same name: the two
  programs' operations are the same operations, in the same order, on the same operands.
-/
import proofs.«135871_j87050397156003_1_alg».proof.Proof.Gen.KernelIdeal.Launch
import proofs.«135871_j87050397156003_1_alg».proof.Proof.Steps
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

/-! ## Before the first region: the index vectors -/

/-- The first stretch leaves the edges' sources followed by the self-loops … -/
theorem sources (Wk : Valuation τ sig (Elt Ideal)) :
    StableHlo.after hostOps0 Wk (Proc.devRef .tc main_v3)
      = Cert.ReferenceIdeal.ReadP.val_main_v3 (F := Ideal) (Wk (Proc.devRef .tc main_arg1)) := by
  simp only [hostOps0]
  after_results_simp
  rfl

/-- … and the edges' targets followed by the self-loops. -/
theorem targets (Wk : Valuation τ sig (Elt Ideal)) :
    StableHlo.after hostOps0 Wk (Proc.devRef .tc main_v6)
      = Cert.ReferenceIdeal.ReadP.val_main_v6 (F := Ideal) (Wk (Proc.devRef .tc main_arg1)) := by
  simp only [hostOps0]
  after_results_simp
  rfl

/-! ## The first layer's stretch -/

/-- Which nodes have a positive degree, from the edges' targets. -/
theorem positive1 (Wk : Valuation τ sig (Elt Ideal)) (x1 : (⟨Cert.ReferenceIdeal.S2x640000, .i32⟩ : BufTy).Contents (Elt Ideal)) (h6 : Wk (Proc.devRef .tc main_v6) = Cert.ReferenceIdeal.ReadP.val_main_v6 (F := Ideal) x1) :
    StableHlo.after hostOps1 Wk (Proc.devRef .tc main_v13) = Cert.ReferenceIdeal.ReadP.val_main_v13 (F := Ideal) x1 := by
  simp only [hostOps1]
  after_results_simp
  rw [h6]
  rfl

/-- The inverse square root of each node's degree, clipped below at one. -/
theorem invsqrt1 (Wk : Valuation τ sig (Elt Ideal)) (x1 : (⟨Cert.ReferenceIdeal.S2x640000, .i32⟩ : BufTy).Contents (Elt Ideal)) (h6 : Wk (Proc.devRef .tc main_v6) = Cert.ReferenceIdeal.ReadP.val_main_v6 (F := Ideal) x1) :
    StableHlo.after hostOps1 Wk (Proc.devRef .tc main_v16) = Cert.ReferenceIdeal.ReadP.val_main_v16 (F := Ideal) x1 := by
  simp only [hostOps1]
  after_results_simp
  rw [h6]
  rfl

/-- The zero a node of degree zero gets instead. -/
theorem zero1 (Wk : Valuation τ sig (Elt Ideal)) :
    StableHlo.after hostOps1 Wk (Proc.devRef .tc main_cst_3) = Cert.ReferenceIdeal.ReadP.val_main_cst_3 (F := Ideal) := by
  simp only [hostOps1]
  after_results_simp
  rfl

/-- The choice between the two, as the outlined function makes it. -/
theorem choice1 (W' : Valuation τ sig (Elt Ideal)) :
    StableHlo.after hostOps1_1 W' (Proc.devRef .tc main_v17)
      = select (W' (Proc.devRef .tc main_v13)) (W' (Proc.devRef .tc main_v16))
          (broadcastInDim S40000 ![] bcast_S_S40000 (W' (Proc.devRef .tc main_cst_3))) := by
  simp only [hostOps1_1]
  after_results_simp
  rfl

/-- The normalising weight of each node: the reference's, from the edges' targets. -/
theorem weight1 (Wk : Valuation τ sig (Elt Ideal)) (x1 : (⟨Cert.ReferenceIdeal.S2x640000, .i32⟩ : BufTy).Contents (Elt Ideal)) (h6 : Wk (Proc.devRef .tc main_v6) = Cert.ReferenceIdeal.ReadP.val_main_v6 (F := Ideal) x1) :
    StableHlo.after hostOps1_1 (StableHlo.after hostOps1 Wk) (Proc.devRef .tc main_v17) = Cert.ReferenceIdeal.ReadP.val_main_v17 (F := Ideal) x1 := by
  rw [choice1, positive1 Wk x1 h6, invsqrt1 Wk x1 h6, zero1 Wk]
  rfl

/-- The aggregation along the edges, from the two index vectors, the nodes' weights and the rows to aggregate. -/
theorem aggregated1 (Wk : Valuation τ sig (Elt Ideal)) (x1 : (⟨Cert.ReferenceIdeal.S2x640000, .i32⟩ : BufTy).Contents (Elt Ideal)) (h3 : Wk (Proc.devRef .tc main_v3) = Cert.ReferenceIdeal.ReadP.val_main_v3 (F := Ideal) x1) (h6 : Wk (Proc.devRef .tc main_v6) = Cert.ReferenceIdeal.ReadP.val_main_v6 (F := Ideal) x1)
    (hw : Wk (Proc.devRef .tc main_v17) = Cert.ReferenceIdeal.ReadP.val_main_v17 (F := Ideal) x1) :
    StableHlo.after hostOps1_2 Wk (Proc.devRef .tc main_v45) = Cert.Steps.agg1 (Wk (Proc.devRef .tc main_v7)) x1 := by
  simp only [hostOps1_2]
  after_results_simp
  rw [h3, h6, hw]
  rfl

/-! ## The second layer's stretch -/

/-- Which nodes have a positive degree, from the edges' targets. -/
theorem positive2 (Wk : Valuation τ sig (Elt Ideal)) (x1 : (⟨Cert.ReferenceIdeal.S2x640000, .i32⟩ : BufTy).Contents (Elt Ideal)) (h6 : Wk (Proc.devRef .tc main_v6) = Cert.ReferenceIdeal.ReadP.val_main_v6 (F := Ideal) x1) :
    StableHlo.after hostOps3 Wk (Proc.devRef .tc main_v53) = Cert.ReferenceIdeal.ReadP.val_main_v56 (F := Ideal) x1 := by
  simp only [hostOps3]
  after_results_simp
  rw [h6]
  rfl

/-- The inverse square root of each node's degree, clipped below at one. -/
theorem invsqrt2 (Wk : Valuation τ sig (Elt Ideal)) (x1 : (⟨Cert.ReferenceIdeal.S2x640000, .i32⟩ : BufTy).Contents (Elt Ideal)) (h6 : Wk (Proc.devRef .tc main_v6) = Cert.ReferenceIdeal.ReadP.val_main_v6 (F := Ideal) x1) :
    StableHlo.after hostOps3 Wk (Proc.devRef .tc main_v56) = Cert.ReferenceIdeal.ReadP.val_main_v59 (F := Ideal) x1 := by
  simp only [hostOps3]
  after_results_simp
  rw [h6]
  rfl

/-- The zero a node of degree zero gets instead. -/
theorem zero2 (Wk : Valuation τ sig (Elt Ideal)) :
    StableHlo.after hostOps3 Wk (Proc.devRef .tc main_cst_14) = Cert.ReferenceIdeal.ReadP.val_main_cst_14 (F := Ideal) := by
  simp only [hostOps3]
  after_results_simp
  rfl

/-- The choice between the two, as the outlined function makes it. -/
theorem choice2 (W' : Valuation τ sig (Elt Ideal)) :
    StableHlo.after hostOps3_1 W' (Proc.devRef .tc main_v57)
      = select (W' (Proc.devRef .tc main_v53)) (W' (Proc.devRef .tc main_v56))
          (broadcastInDim S40000 ![] bcast_S_S40000 (W' (Proc.devRef .tc main_cst_14))) := by
  simp only [hostOps3_1]
  after_results_simp
  rfl

/-- The normalising weight of each node: the reference's, from the edges' targets. -/
theorem weight2 (Wk : Valuation τ sig (Elt Ideal)) (x1 : (⟨Cert.ReferenceIdeal.S2x640000, .i32⟩ : BufTy).Contents (Elt Ideal)) (h6 : Wk (Proc.devRef .tc main_v6) = Cert.ReferenceIdeal.ReadP.val_main_v6 (F := Ideal) x1) :
    StableHlo.after hostOps3_1 (StableHlo.after hostOps3 Wk) (Proc.devRef .tc main_v57) = Cert.ReferenceIdeal.ReadP.val_main_v60 (F := Ideal) x1 := by
  rw [choice2, positive2 Wk x1 h6, invsqrt2 Wk x1 h6, zero2 Wk]
  rfl

/-- The aggregation along the edges, from the two index vectors, the nodes' weights and the rows to aggregate. -/
theorem aggregated2 (Wk : Valuation τ sig (Elt Ideal)) (x1 : (⟨Cert.ReferenceIdeal.S2x640000, .i32⟩ : BufTy).Contents (Elt Ideal)) (h3 : Wk (Proc.devRef .tc main_v3) = Cert.ReferenceIdeal.ReadP.val_main_v3 (F := Ideal) x1) (h6 : Wk (Proc.devRef .tc main_v6) = Cert.ReferenceIdeal.ReadP.val_main_v6 (F := Ideal) x1)
    (hw : Wk (Proc.devRef .tc main_v57) = Cert.ReferenceIdeal.ReadP.val_main_v60 (F := Ideal) x1) :
    StableHlo.after hostOps3_2 Wk (Proc.devRef .tc main_v85) = Cert.Steps.agg2 (Wk (Proc.devRef .tc main_v47)) x1 := by
  simp only [hostOps3_2]
  after_results_simp
  rw [h3, h6, hw]
  rfl

/-! ## After the last bias-and-clip -/

/-- The last stretch: the mean of the node rows over each graph. -/
theorem pooled (Wk : Valuation τ sig (Elt Ideal)) :
    StableHlo.after hostOps4 Wk (Proc.devRef .tc main_v98)
      = Cert.Steps.pool (Wk (Proc.devRef .tc main_v86)) (Wk (Proc.devRef .tc main_arg2)) := by
  simp only [hostOps4]
  after_results_simp
  rfl

end Cert.KernelIdeal.Stretch

end
-- ==== Proof.LibGraphHost.lean ====
/-
  The row-wise pieces of a graph convolution against the forms a host program writes them in, at the ideal values.

    a host `dot_general` contracting the second axis of [n, k] with the first of [k, c]      is `rowsMul`;
    rows times a weight vector broadcast first to a column and then along the rows             is `scaleRows` of the
                                                                                                 vector recast as a column;
    rows plus a bias vector broadcast first to one row and then down the rows                  is `addRowOf` of the
                                                                                                 vector recast as one row;
    the same clipped below at a broadcast float zero                                           is `addRowClip`.
-/
import proofs.«135871_j87050397156003_1_alg».proof.Proof.LibGraphRows
import proofs.«135871_j87050397156003_1_alg».proof.Proof.LibKeepdims
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx
open scoped BigOperators

/-- The host's matrix product, at entry (p, q), is the row–column sum. -/
theorem dotGeneral_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂) :
    Host.dotGeneral (F := Ideal) D prec a W = rowsMul (n := n) (k := k) (c := c) a W := by
  funext i
  obtain ⟨p, q, rfl⟩ : ∃ (p : Fin n) (q : Fin c), i = ix2 p q := ⟨i 0, i 1, eq_ix2 i⟩
  show FloatOps.dotGeneral D prec .single a W (ix2 p q) = _
  rw [Ideal.dotGeneral_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

/-- A vector broadcast to a column and then along the rows reads, at (e, f), the vector at e. -/
theorem bcast_col_rows_apply {n c : Nat} {α : Type} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (e : Fin n) (f : Fin c) :
    broadcastInDim ⟨2, ![n, c]⟩ ![0, 1] h2 (broadcastInDim ⟨2, ![n, 1]⟩ ![0] h1 v) (ix2 e f) = v (ix1 e) := by
  refine (broadcastInDim_apply _ h2 _ (ix2 e f) (ix2 e (0 : Fin 1)) fun ax => ?_).trans
    (broadcastInDim_apply _ h1 v (ix2 e (0 : Fin 1)) (ix1 e) fun ax => ?_)
  · match ax with
    | ⟨0, _⟩ =>
      show e.val = if n = 1 then 0 else e.val
      split
      · have := e.isLt; omega
      · rfl
    | ⟨1, _⟩ => rfl
  · match ax with
    | ⟨0, _⟩ =>
      show e.val = if n = 1 then 0 else e.val
      split
      · have := e.isLt; omega
      · rfl

/-- A vector broadcast to one row and then down the rows reads, at (r, q), the vector at q. -/
theorem bcast_row_rows_apply {n c : Nat} {α : Type} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (r : Fin n) (q : Fin c) :
    broadcastInDim ⟨2, ![n, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => rfl
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- Rows times the doubly broadcast weight vector: `scaleRows` of the vector recast as a column. -/
theorem scaleRows_col {n c : Nat} (H : FVec Ideal ⟨2, ![n, c]⟩ .f32) (v : FVec Ideal ⟨1, ![n]⟩ .f32)
    (hc : (⟨1, ![n]⟩ : Shape).ShapeCasts ⟨2, ![n, 1]⟩)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    scaleRows (n := n) (c := c) H (shapeCast ⟨2, ![n, 1]⟩ v hc)
      = mulf H (broadcastInDim ⟨2, ![n, c]⟩ ![0, 1] h2 (broadcastInDim ⟨2, ![n, 1]⟩ ![0] h1 v)) := by
  funext i
  obtain ⟨e, f, rfl⟩ : ∃ (e : Fin n) (f : Fin c), i = ix2 e f := ⟨i 0, i 1, eq_ix2 i⟩
  rw [mulf_apply, bcast_col_rows_apply v h1 h2 e f]
  unfold scaleRows
  have : rowOf (ix2 e f) = e := Fin.ext rfl
  rw [this, Cert.LibKeepdims.shapeCast_a_a1_apply v hc e (0 : Fin 1)]

/-- Rows plus the doubly broadcast bias vector: `addRowOf` of the vector recast as one row. -/
theorem addRowOf_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) :
    addRowOf (n := n) (c := c) A (shapeCast ⟨2, ![1, c]⟩ b hc)
      = addf A (broadcastInDim ⟨2, ![n, c]⟩ ![0, 1] h2 (broadcastInDim ⟨2, ![1, c]⟩ ![1] h1 b)) := by
  funext i
  obtain ⟨r, q, rfl⟩ : ∃ (r : Fin n) (q : Fin c), i = ix2 r q := ⟨i 0, i 1, eq_ix2 i⟩
  rw [addf_apply, bcast_row_rows_apply b h1 h2 r q]
  unfold addRowOf
  have : colOf (ix2 r q) = q := Fin.ext rfl
  rw [this, shapeCast_a_1a_apply b hc (0 : Fin 1) q]

/-- The same clipped below at a broadcast float zero: `addRowClip`. -/
theorem addRowClip_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) :
    addRowClip (n := n) (c := c) A (shapeCast ⟨2, ![1, c]⟩ b hc)
      = maximumf (addf A (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 0x00000000#32)) := by
  funext i
  obtain ⟨r, q, rfl⟩ : ∃ (r : Fin n) (q : Fin c), i = ix2 r q := ⟨i 0, i 1, eq_ix2 i⟩
  rw [maximumf_apply, addf_apply, bcast_row_rows_apply b h1 h2 r q,
    broadcastInDim_apply _ h0 _ (ix2 r q) ix0 (fun ax => ax.elim0)]
  unfold addRowClip
  have : colOf (ix2 r q) = q := Fin.ext rfl
  rw [this, shapeCast_a_1a_apply b hc (0 : Fin 1) q]
  rfl

end Cert.Sage

end
-- ==== Proof.Bridge.lean ====
/-
  The idealized kernel's result is the reference's.

  The kernel's run ends with the result buffer at the last boundary's contents. Walking the boundaries from the launch:
  each region leaves the reference's step of the arrays it found (a dense product; a bias added and clipped at zero;
  the linear head and the log-softmax of its rows), each host stretch between two regions is the reference's own index
  plumbing, and every argument is as launched at the boundary where it is read. So the last boundary holds, at the
  result buffer, the reference's nine steps composed on the arguments — the reference's result.

  The two programs spell three steps differently and they are the same functions on the extended reals: a product
  into a zero accumulator of rows narrowed to bf16 against a host product (the narrowing is the identity, and both
  are the row–column sum); a bias recast as one row and spread down the rows against a bias broadcast twice; a lane
  maximum and a lane sum recast as columns against a host reduce and a float sum from zero broadcast to columns.
-/
import proofs.«135871_j87050397156003_1_alg».proof.Defs
import proofs.«135871_j87050397156003_1_alg».proof.Proof.KernelRun
import proofs.«135871_j87050397156003_1_alg».proof.Proof.Boundaries
import proofs.«135871_j87050397156003_1_alg».proof.Proof.Region0
import proofs.«135871_j87050397156003_1_alg».proof.Proof.Region1
import proofs.«135871_j87050397156003_1_alg».proof.Proof.Region2
import proofs.«135871_j87050397156003_1_alg».proof.Proof.Region3
import proofs.«135871_j87050397156003_1_alg».proof.Proof.Region4
import proofs.«135871_j87050397156003_1_alg».proof.Proof.Stretches
import proofs.«135871_j87050397156003_1_alg».proof.Proof.Steps
import proofs.«135871_j87050397156003_1_alg».proof.Proof.LibGraphHost

set_option maxRecDepth 16384

noncomputable section

namespace Cert.Steps

open Cert.ReferenceIdeal Cert.ReferenceIdeal.Gen Cert.ReferenceIdeal.ReadP Idealize.ShloMosaic Idealize.ShloMosaic.TcCoe Idealize.SL.Sem
open Idealize.ShloMosaic.ValueIdx Cert.Sage

/-! ## The three steps the programs spell differently -/

/-- The host's dense product [40000, 128] × [128, 128] is the row–column sum. -/
theorem dense_eq (A : FVec Ideal S40000x128 .f32) (W : FVec Ideal S128x128 .f32) :
    rowsMul (n := 40000) (k := 128) (c := 128) A W
      = Host.dotGeneral (F := Ideal) dot_S40000x128_S128x128_S40000x128_1_0_0_1_n_n none A W :=
  (dotGeneral_rows dot_S40000x128_S128x128_S40000x128_1_0_0_1_n_n rfl rfl lhs_main_v7_0 lhs_main_v7_1 rhs_main_v7_0 rhs_main_v7_1
    none A W).symm

/-- The host's bias-and-clip of the first layer is the clipped sum with the bias as one row. -/
theorem clip1_eq (A : FVec Ideal S40000x128 .f32) (b : FVec Ideal S128 .f32) (hc : S128.ShapeCasts S1x128) :
    addRowClip (n := 40000) (c := 128) A (shapeCast S1x128 b hc) = Cert.Steps.clip1 (F := Ideal) A b :=
  addRowClip_row A b hc bcast_S128_S1x128_1 bcast_S1x128_S40000x128_0_1 bcast_S_S40000x128

/-- The second layer's likewise. -/
theorem clip2_eq (A : FVec Ideal S40000x128 .f32) (b : FVec Ideal S128 .f32) (hc : S128.ShapeCasts S1x128) :
    addRowClip (n := 40000) (c := 128) A (shapeCast S1x128 b hc) = Cert.Steps.clip2 (F := Ideal) A b :=
  addRowClip_row A b hc bcast_S128_S1x128_1 bcast_S1x128_S40000x128_0_1 bcast_S_S40000x128

/-- The host's logits are the row–column sum plus the bias as one row. -/
theorem logits_eq (P : FVec Ideal S256x128 .f32) (W : FVec Ideal S128x10 .f32) (b : FVec Ideal S10 .f32) (hc : S10.ShapeCasts S1x10) :
    addRowOf (n := 256) (c := 10) (rowsMul (n := 256) (k := 128) (c := 10) P W) (shapeCast S1x10 b hc)
      = Cert.Steps.logits (F := Ideal) P W b := by
  rw [addRowOf_row _ b hc bcast_S10_S1x10_1 bcast_S1x10_S256x10_0_1,
    ← dotGeneral_rows dot_S256x128_S128x10_S256x10_1_0_0_1_n_n rfl rfl lhs_main_v105_0 lhs_main_v105_1 rhs_main_v105_0 rhs_main_v105_1 none P W]
  rfl

/-- The host's log-softmax is the log-softmax of every row. -/
theorem logSoftmax_eq (L : FVec Ideal S256x10 .f32) :
    logSoftmaxRows (n := 256) (c := 10) L = Cert.Steps.logSoftmax (F := Ideal) L := by
  funext i
  obtain ⟨r, q, rfl⟩ : ∃ (r : Fin 256) (q : Fin 10), i = ix2 r q := ⟨i 0, i 1, eq_ix2 i⟩
  exact (hostLogSoftmax_apply L reducesTo_S256x10_S256_d1 (by decide) h_S_ bcast_S_S256 bcast_S256_S256x1_0 bcast_S256x1_S256x10_0_1 r q).symm

end Cert.Steps

namespace Cert.KernelIdeal.Bridge

open Cert.KernelIdeal Cert.KernelIdeal.Gen Idealize.ShloMosaic Idealize.ShloMosaic.TcCoe Idealize.SL.Sem
open Idealize.ShloMosaic.ValueIdx Cert.Sage

/-! ## The boundaries, walked from the launch -/

variable (m : (ℓ : Loc nD τ sig) → Buf (Elt Ideal) ℓ) (ρ : Dev nD → PrngReg)

/-- After region 0: the first dense product of the node features with the first weights. -/
theorem at_v7 (c : Dev nD) :
    W2 m ρ c (Proc.devRef .tc main_v7)
      = Cert.Steps.dense1 (F := Ideal) (m ((c : Thread nD τ).loc main_arg0)) (m ((c : Thread nD τ).loc main_arg3)) := by
  refine (W2_arr m ρ c 2).trans ((Dense0.final (V1 m ρ) c).trans ?_)
  show rowsMul (n := 40000) (k := 128) (c := 128) (W1 m ρ c (Proc.devRef .tc main_arg0)) (W1 m ρ c (Proc.devRef .tc main_arg3)) = _
  rw [Kept.W1_main_arg0 m ρ c, Kept.W1_main_arg3 m ρ c]
  exact Cert.Steps.dense_eq _ _

/-- After the first host stretch: the first layer's aggregation. -/
theorem at_v45 (c : Dev nD) :
    W5 m ρ c (Proc.devRef .tc main_v45)
      = Cert.Steps.agg1 (F := Ideal) (Cert.Steps.dense1 (F := Ideal) (m ((c : Thread nD τ).loc main_arg0)) (m ((c : Thread nD τ).loc main_arg3)))
          (m ((c : Thread nD τ).loc main_arg1)) := by
  have h6 : W2 m ρ c (Proc.devRef .tc main_v6) = Cert.ReferenceIdeal.ReadP.val_main_v6 (F := Ideal) (m ((c : Thread nD τ).loc main_arg1)) :=
    (Kept.W2_main_v6 m ρ c).trans (Stretch.targets (W0 m ρ c))
  refine (Stretch.aggregated1 (W4 m ρ c) (m ((c : Thread nD τ).loc main_arg1))
    ((Kept.W4_main_v3 m ρ c).trans (Stretch.sources (W0 m ρ c))) ((Kept.W4_main_v6 m ρ c).trans (Stretch.targets (W0 m ρ c)))
    (Stretch.weight1 (W2 m ρ c) (m ((c : Thread nD τ).loc main_arg1)) h6)).trans ?_
  rw [Kept.W4_main_v7 m ρ c, at_v7 m ρ c]

/-- After region 1: the first layer's bias added and clipped. -/
theorem at_v46 (c : Dev nD) :
    W6 m ρ c (Proc.devRef .tc main_v46)
      = Cert.Steps.clip1 (F := Ideal) (Cert.Steps.agg1 (F := Ideal) (Cert.Steps.dense1 (F := Ideal) (m ((c : Thread nD τ).loc main_arg0)) (m ((c : Thread nD τ).loc main_arg3)))
          (m ((c : Thread nD τ).loc main_arg1))) (m ((c : Thread nD τ).loc main_arg4)) := by
  refine (W6_arr m ρ c 2).trans ((Clip1.final (V5 m ρ) c).trans ?_)
  show addRowClip (n := 40000) (c := 128) (W5 m ρ c (Proc.devRef .tc main_v45)) (shapeCast S1x128 (W5 m ρ c (Proc.devRef .tc main_arg4)) shapeCasts_S128_S1x128) = _
  rw [at_v45 m ρ c, Kept.W5_main_arg4 m ρ c]
  exact Cert.Steps.clip1_eq _ _ _

/-- After region 2: the second dense product. -/
theorem at_v47 (c : Dev nD) :
    W7 m ρ c (Proc.devRef .tc main_v47)
      = Cert.Steps.dense2 (F := Ideal) (Cert.Steps.clip1 (F := Ideal) (Cert.Steps.agg1 (F := Ideal) (Cert.Steps.dense1 (F := Ideal) (m ((c : Thread nD τ).loc main_arg0)) (m ((c : Thread nD τ).loc main_arg3)))
          (m ((c : Thread nD τ).loc main_arg1))) (m ((c : Thread nD τ).loc main_arg4))) (m ((c : Thread nD τ).loc main_arg5)) := by
  refine (W7_arr m ρ c 2).trans ((Dense2.final (V6 m ρ) c).trans ?_)
  show rowsMul (n := 40000) (k := 128) (c := 128) (W6 m ρ c (Proc.devRef .tc main_v46)) (W6 m ρ c (Proc.devRef .tc main_arg5)) = _
  rw [at_v46 m ρ c, Kept.W6_main_arg5 m ρ c]
  exact Cert.Steps.dense_eq _ _

/-- After the second host stretch: the second layer's aggregation. -/
theorem at_v85 (c : Dev nD) :
    W10 m ρ c (Proc.devRef .tc main_v85)
      = Cert.Steps.agg2 (F := Ideal) (Cert.Steps.dense2 (F := Ideal) (Cert.Steps.clip1 (F := Ideal) (Cert.Steps.agg1 (F := Ideal) (Cert.Steps.dense1 (F := Ideal) (m ((c : Thread nD τ).loc main_arg0)) (m ((c : Thread nD τ).loc main_arg3)))
          (m ((c : Thread nD τ).loc main_arg1))) (m ((c : Thread nD τ).loc main_arg4))) (m ((c : Thread nD τ).loc main_arg5))) (m ((c : Thread nD τ).loc main_arg1)) := by
  have h6 : W7 m ρ c (Proc.devRef .tc main_v6) = Cert.ReferenceIdeal.ReadP.val_main_v6 (F := Ideal) (m ((c : Thread nD τ).loc main_arg1)) :=
    (Kept.W7_main_v6 m ρ c).trans (Stretch.targets (W0 m ρ c))
  refine (Stretch.aggregated2 (W9 m ρ c) (m ((c : Thread nD τ).loc main_arg1))
    ((Kept.W9_main_v3 m ρ c).trans (Stretch.sources (W0 m ρ c))) ((Kept.W9_main_v6 m ρ c).trans (Stretch.targets (W0 m ρ c)))
    (Stretch.weight2 (W7 m ρ c) (m ((c : Thread nD τ).loc main_arg1)) h6)).trans ?_
  rw [Kept.W9_main_v47 m ρ c, at_v47 m ρ c]

/-- After region 3: the second layer's bias added and clipped. -/
theorem at_v86 (c : Dev nD) :
    W11 m ρ c (Proc.devRef .tc main_v86)
      = Cert.Steps.clip2 (F := Ideal) (Cert.Steps.agg2 (F := Ideal) (Cert.Steps.dense2 (F := Ideal) (Cert.Steps.clip1 (F := Ideal) (Cert.Steps.agg1 (F := Ideal) (Cert.Steps.dense1 (F := Ideal) (m ((c : Thread nD τ).loc main_arg0)) (m ((c : Thread nD τ).loc main_arg3)))
          (m ((c : Thread nD τ).loc main_arg1))) (m ((c : Thread nD τ).loc main_arg4))) (m ((c : Thread nD τ).loc main_arg5))) (m ((c : Thread nD τ).loc main_arg1))) (m ((c : Thread nD τ).loc main_arg6)) := by
  refine (W11_arr m ρ c 2).trans ((Clip3.final (V10 m ρ) c).trans ?_)
  show addRowClip (n := 40000) (c := 128) (W10 m ρ c (Proc.devRef .tc main_v85)) (shapeCast S1x128 (W10 m ρ c (Proc.devRef .tc main_arg6)) shapeCasts_S128_S1x128) = _
  rw [at_v85 m ρ c, Kept.W10_main_arg6 m ρ c]
  exact Cert.Steps.clip2_eq _ _ _

/-- After the last host stretch: the mean over each graph. -/
theorem at_v98 (c : Dev nD) :
    W12 m ρ c (Proc.devRef .tc main_v98)
      = Cert.Steps.pool (F := Ideal) (Cert.Steps.clip2 (F := Ideal) (Cert.Steps.agg2 (F := Ideal) (Cert.Steps.dense2 (F := Ideal) (Cert.Steps.clip1 (F := Ideal) (Cert.Steps.agg1 (F := Ideal) (Cert.Steps.dense1 (F := Ideal) (m ((c : Thread nD τ).loc main_arg0)) (m ((c : Thread nD τ).loc main_arg3)))
          (m ((c : Thread nD τ).loc main_arg1))) (m ((c : Thread nD τ).loc main_arg4))) (m ((c : Thread nD τ).loc main_arg5))) (m ((c : Thread nD τ).loc main_arg1))) (m ((c : Thread nD τ).loc main_arg6))) (m ((c : Thread nD τ).loc main_arg2)) := by
  refine (Stretch.pooled (W11 m ρ c)).trans ?_
  rw [at_v86 m ρ c, Kept.W11_main_arg2 m ρ c]

/-- THE KERNEL'S RESULT: after region 4 the result buffer holds the reference's result of the arguments. -/
theorem at_result (c : Dev nD) :
    W13 m ρ c (Proc.devRef .tc main_v99)
      = Cert.ReferenceIdeal.ReadP.val_main_v109 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [Cert.Steps.result_eq]
  refine (W13_arr m ρ c 3).trans ((Head.final (V12 m ρ) c).trans ?_)
  show logSoftmaxRows (n := 256) (c := 10) (addRowOf (n := 256) (c := 10)
      (rowsMul (n := 256) (k := 128) (c := 10) (W12 m ρ c (Proc.devRef .tc main_v98)) (W12 m ρ c (Proc.devRef .tc main_arg7)))
      (shapeCast S1x10 (W12 m ρ c (Proc.devRef .tc main_arg8)) shapeCasts_S10_S1x10)) = _
  rw [at_v98 m ρ c, Kept.W12_main_arg7 m ρ c, Kept.W12_main_arg8 m ρ c, Cert.Steps.logits_eq, Cert.Steps.logSoftmax_eq]

end Cert.KernelIdeal.Bridge

end
-- ==== Proof.lean ====
/-
  The certificate of a two-layer graph convolution with a pooled linear head, kernel against reference, on the
  extended reals.

  Both programs compute, for node features x, an edge list and graph ids:
      h₁ = max (Â (x W₁) + b₁) 0,   h₂ = max (Â (h₁ W₂) + b₂) 0,   p = the mean of h₂'s rows over each graph,
      result = log_softmax (p W_fc + b_fc) along each row,
  where Â gathers the rows along the edges (with a self-loop at every node), scales each by the product of the two
  end points' inverse square-root degrees, and adds them up at the edges' targets. The kernel runs the two dense
  products, the two bias-and-clip steps and the head with its log-softmax as five kernel regions, and the index
  plumbing of Â and of the mean as the same host operations as the reference.

  The frames of the two kernel programs are their generated frame certificates; the reference's frame is its run with
  the result dropped. The idealization rewrote nothing, so it is preserved trivially. The value claim: the kernel's
  result buffer ends at the reference's result of the same arguments (Bridge.lean), with no use of the precondition:
  the two sides are the same function of the arguments, operation by operation.
-/
import proofs.«135871_j87050397156003_1_alg».proof.Defs
import proofs.«135871_j87050397156003_1_alg».proof.Proof.Gen.Kernel
import proofs.«135871_j87050397156003_1_alg».proof.Proof.Gen.Kernel.Skeleton
import proofs.«135871_j87050397156003_1_alg».proof.Proof.Gen.Kernel.Launch
import proofs.«135871_j87050397156003_1_alg».proof.Proof.Gen.Kernel.Points
import proofs.«135871_j87050397156003_1_alg».proof.Proof.Gen.Kernel.Frame
import proofs.«135871_j87050397156003_1_alg».proof.Proof.Gen.KernelIdeal
import proofs.«135871_j87050397156003_1_alg».proof.Proof.Gen.KernelIdeal.Skeleton
import proofs.«135871_j87050397156003_1_alg».proof.Proof.Gen.KernelIdeal.Launch
import proofs.«135871_j87050397156003_1_alg».proof.Proof.Gen.KernelIdeal.Points
import proofs.«135871_j87050397156003_1_alg».proof.Proof.Gen.KernelIdeal.Frame
import proofs.«135871_j87050397156003_1_alg».proof.Proof.Gen.ReferenceIdeal
import proofs.«135871_j87050397156003_1_alg».proof.Proof.Gen.Pre_finite_inputs
import proofs.«135871_j87050397156003_1_alg».proof.Proof.RefRun
import proofs.«135871_j87050397156003_1_alg».proof.Proof.RefRead
import proofs.«135871_j87050397156003_1_alg».proof.Proof.KernelRun
import proofs.«135871_j87050397156003_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

/-- The reference's frame: its run with the result dropped. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- From memories agreeing on the arguments both idealized programs end with the same result: the kernel's result
    buffer holds the reference's result of the kernel's arguments, and the reference's its result of its own. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W13 m ρ c (Proc.devRef .tc Cert.KernelIdeal.main_v99), Cert.KernelIdeal.Named.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v109_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.KernelIdeal.Bridge.at_result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
